-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S64x4096 : Shape := ⟨2, ![64, 4096]⟩
abbrev S64x64 : Shape := ⟨2, ![64, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  main_v58

def fn_part2 {F : FTy → Type} [FloatOps F] (main_arg7 : FVec F S64 .f32) (main_arg8 : FVec F S64x4096 .f32) (main_arg9 : FVec F S64 .f32) (main_arg10 : FVec F S64 .f32) (main_arg11 : FVec F S64x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x4096 .f32 := Host.absf main_arg8
  let main_cst_14 : FVec F S_ .f32 := constant S_ .f32 0x7F800000#32
  let main_v40 : FVec F S64x4096 .f32 := broadcastInDim S64x4096 ![] bcast_S_S64x4096 main_cst_14
  let main_v41 : IVec S64x4096 1 := cmpf .olt main_v39 main_v40
  let main_c_15 : IVec S_ 1 := constantI S_ 1 1#1
  let main_v42 : IVec S_ 1 := (fun x v => Host.reduce IntOp.andi x v reducesTo_S64x4096_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S64 .f32) (main_arg5 : FVec F S64x4096 .f32) (main_arg6 : FVec F S4096x64 .f32) (main_arg7 : FVec F S64 .f32) (main_arg8 : FVec F S64x4096 .f32) (main_arg9 : FVec F S64 .f32) (main_arg10 : FVec F S64 .f32) (main_arg11 : FVec F S64x64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4096 .f32 := Host.absf main_arg5
  let main_cst_8 : FVec F S_ .f32 := constant S_ .f32 0x7F800000#32
  let main_v25 : FVec F S64x4096 .f32 := broadcastInDim S64x4096 ![] bcast_S_S64x4096 main_cst_8
  let main_v26 : IVec S64x4096 1 := cmpf .olt main_v24 main_v25
  let main_c_9 : IVec S_ 1 := constantI S_ 1 1#1
  let main_v27 : IVec S_ 1 := (fun x v => Host.reduce IntOp.andi x v reducesTo_S64x4096_S_d0_1 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x4096x4096 .f32) (main_arg1 : FVec F S4096x4096 .f32) (main_arg2 : FVec F S4096 .f32) (main_arg3 : FVec F S4096x64 .f32) (main_arg4 : FVec F S64 .f32) (main_arg5 : FVec F S64x4096 .f32) (main_arg6 : FVec F S4096x64 .f32) (main_arg7 : FVec F S64 .f32) (main_arg8 : FVec F S64x4096 .f32) (main_arg9 : FVec F S64 .f32) (main_arg10 : FVec F S64 .f32) (main_arg11 : FVec F S64x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_arg6 main_arg7 main_arg8 main_arg9 main_arg10 main_arg11 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S64x4096 : Shape := ⟨2, ![64, 4096]⟩
abbrev S64x64 : Shape := ⟨2, ![64, 64]⟩
abbrev S16384x4096 : Shape := ⟨2, ![16384, 4096]⟩
abbrev S256x4096 : Shape := ⟨2, ![256, 4096]⟩
abbrev S256x64 : Shape := ⟨2, ![256, 64]⟩
abbrev S1x64 : Shape := ⟨2, ![1, 64]⟩
abbrev S2048x256 : Shape := ⟨2, ![2048, 256]⟩
abbrev S1024x256 : Shape := ⟨2, ![1024, 256]⟩
abbrev S1024 : Shape := ⟨1, ![1024]⟩
abbrev S2048x1024 : Shape := ⟨2, ![2048, 1024]⟩
abbrev S1x1024 : Shape := ⟨2, ![1, 1024]⟩

abbrev nBuf : Space → Nat
  | .hbm => 17
  | .vmem => 24
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S64x4096, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S16384x4096, .f32⟩
  | .hbm, ⟨13, _⟩ => ⟨S16384x4096, .bf16⟩
  | .hbm, ⟨14, _⟩ => ⟨S4096x4096, .bf16⟩
  | .hbm, ⟨15, _⟩ => ⟨S16384x4096, .f32⟩
  | .hbm, ⟨16, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x64, .f32⟩
  | .local _ .vmem, ⟨3, _⟩ => ⟨S256x64, .f32⟩
  | .local _ .vmem, ⟨4, _⟩ => ⟨S64x4096, .f32⟩
  | .local _ .vmem, ⟨5, _⟩ => ⟨S256x64, .f32⟩
  | .local _ .vmem, ⟨6, _⟩ => ⟨S256x64, .f32⟩
  | .local _ .vmem, ⟨7, _⟩ => ⟨S64x4096, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S64x64, .f32⟩
  | .local _ .vmem, ⟨13, _⟩ => ⟨S256x4096, .bf16⟩
  | .local _ .vmem, ⟨14, _⟩ => ⟨S256x4096, .bf16⟩
  | .local _ .vmem, ⟨15, _⟩ => ⟨S2048x256, .bf16⟩
  | .local _ .vmem, ⟨16, _⟩ => ⟨S2048x256, .bf16⟩
  | .local _ .vmem, ⟨17, _⟩ => ⟨S1024x256, .bf16⟩
  | .local _ .vmem, ⟨18, _⟩ => ⟨S1024x256, .bf16⟩
  | .local _ .vmem, ⟨19, _⟩ => ⟨S1024, .f32⟩
  | .local _ .vmem, ⟨20, _⟩ => ⟨S1024, .f32⟩
  | .local _ .vmem, ⟨21, _⟩ => ⟨S2048x1024, .f32⟩
  | .local _ .vmem, ⟨22, _⟩ => ⟨S2048x1024, .f32⟩
  | .local _ .vmem, ⟨23, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨3, ![8, 4, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x4096_S16384x4096 : S4x4096x4096.ShapeCasts S16384x4096
  bitsLt_bf16_f32 : FTy.bits .bf16 < FTy.bits .f32
  inb_S64_S64_0 : ∀ a, (![0] : Fin 1 → Nat) a + S64.size a ≤ S64.size a
  h_S64 : 0 < S64.numel
  inb_S256x64_S256x64_0_0 : ∀ a, (![0, 0] : Fin 2 → Nat) a + S256x64.size a ≤ S256x64.size a
  h_S256x64 : 0 < S256x64.numel
  shapeCasts_S64_S1x64 : S64.ShapeCasts S1x64
  broadcasts_S1x64_S256x64 : S1x64.Broadcasts S256x64
  inb_S64x4096_S64x4096_0_0 : ∀ a, (![0, 0] : Fin 2 → Nat) a + S64x4096.size a ≤ S64x4096.size a
  h_S64x4096 : 0 < S64x4096.numel
  inb_S64x64_S64x64_0_0 : ∀ a, (![0, 0] : Fin 2 → Nat) a + S64x64.size a ≤ S64x64.size a
  h_S64x64 : 0 < S64x64.numel
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S16384x4096_S4x4096x4096 : S16384x4096.ShapeCasts S4x4096x4096
  dot_S64x64_S64x4096_S64x4096_1_0_0_1_n_n_wf : DotDims.WF S64x64 S64x4096 S64x4096 [1] [0] [0] [1] [] []
  dot_S256x64_S64x4096_S256x4096_1_0_0_1_n_n_wf : DotDims.WF S256x64 S64x4096 S256x4096 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S4096x64.size a
  hwx0_3 : ∀ i : grid0.Coords, EltTy.bits .f32 = 32 ∨ (Rect.block (s := S4096x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x4096.size a ≤ S4096x4096.size a
  hwx0_10 : ∀ i : grid0.Coords, EltTy.bits .bf16 = 32 ∨ (Rect.block (s := S4096x4096) S256x4096.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x4096.size a
  hwx1_0 : ∀ i : grid1.Coords, EltTy.bits .bf16 = 32 ∨ (Rect.block (s := S16384x4096) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .bf16 = 32 ∨ (Rect.block (s := S4096x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S16384x4096.size a
  hwx1_3 : ∀ i : grid1.Coords, EltTy.bits .f32 = 32 ∨ (Rect.block (s := S16384x4096) S2048x1024.size (cc1_transform_3 i) (hinb1_3 i)).WholeWords (EltTy.packing .f32)

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S256x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S64x4096 : Shape := ⟨2, ![64, 4096]⟩
abbrev S64x64 : Shape := ⟨2, ![64, 64]⟩
abbrev S_ : Shape := ⟨0, ![]⟩
abbrev S1x64 : Shape := ⟨2, ![1, 64]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S64x4096, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x4096, .f32⟩
  | .hbm, ⟨21, _⟩ => ⟨S1x64, .f32⟩
  | .hbm, ⟨22, _⟩ => ⟨S4096x64, .f32⟩
  | .hbm, ⟨23, _⟩ => ⟨S4096x64, .f32⟩
  | .hbm, ⟨24, _⟩ => ⟨S64x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4x4096x4096, .f32⟩
  | .hbm, ⟨29, _⟩ => ⟨S1x1x4096, .f32⟩
  | .hbm, ⟨30, _⟩ => ⟨S4x4096x4096, .f32⟩
  | .hbm, ⟨31, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_cst : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x64_S64x4096_S4096x4096_1_0_0_1_n_n_wf : DotDims.WF S4096x64 S64x4096 S4096x4096 [1] [0] [0] [1] [] []
  dot_S64x64_S64x4096_S64x4096_1_0_0_1_n_n_wf : DotDims.WF S64x64 S64x4096 S64x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Bits.Region0.lean ====
/-
  The first kernel region (the prologue that builds the corrected weight matrix): at a parameter `V`, the
  contents the region finds in the core's buffers.  Each of the ten input windows hands the body its block of
  the array it stages; the body's one store covers the output block whole, so what it leaves is one pure
  function `out0` of the ten input blocks: W-block + (U_top-block · relu(S_top·alpha + beta)) · Vh_top
  + (U_tail-block · S_tail) · (R · Vh_tail), every factor rounded as the program says.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (where it did not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (where it did not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (where it did not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (where it did not, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not (where it did not, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or not (where it did not, the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the pipeline fetched it there
    or not (where it did not, the block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the pipeline fetched it there
    or not (where it did not, the block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether the pipeline fetched it there
    or not (where it did not, the block index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, whether the pipeline fetched it there
    or not (where it did not, the block index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole block -/

abbrev rA_64 : Rect S64 := Rect.unit (s := S64) ![0] S64.size inb_S64_S64_0
abbrev rA_256x64 : Rect S256x64 := Rect.unit (s := S256x64) ![0, 0] S256x64.size inb_S256x64_S256x64_0_0
abbrev rA_64x4096 : Rect S64x4096 := Rect.unit (s := S64x4096) ![0, 0] S64x4096.size inb_S64x4096_S64x4096_0_0
abbrev rA_64x64 : Rect S64x64 := Rect.unit (s := S64x64) ![0, 0] S64x64.size inb_S64x64_S64x64_0_0
abbrev rA_256x4096 : Rect S256x4096 := Rect.unit (s := S256x4096) ![0, 0] S256x4096.size inb_S256x4096_S256x4096_0_0

/-- What the body leaves in the output window's staging buffer, from the ten input blocks (in window order:
    W, U_top, Vh_top, U_tail, Vh_tail, S_top, alpha, beta, S_tail, R): its one store, as a piece. -/
def out0 (x0 : Vec F S256x4096 .f32) (x1 : Vec F S256x64 .f32) (x2 : Vec F S64x4096 .f32) (x3 : Vec F S256x64 .f32) (x4 : Vec F S64x4096 .f32)
    (x5 x6 x7 x8 : Vec F S64 .f32) (x9 : Vec F S64x64 .f32) : Vec F S256x4096 .bf16 :=
  View.canon [⟨rA_256x4096, k0_pay1 (View.ld x5 rA_64) (View.ld x6 rA_64) (View.ld x7 rA_64) (View.ld x1 rA_256x64) (View.ld x3 rA_256x64)
    (View.ld x8 rA_64) (View.ld x2 rA_64x4096) (View.ld x4 rA_64x4096) (View.ld x9 rA_64x64) (View.ld x0 rA_256x4096)⟩]

/-- The one store covers the block. -/
theorem cover0 (p0 : Vec F S256x4096 .bf16) (y : S256x4096.Idx) :
    ∃ pc ∈ ([⟨rA_256x4096, p0⟩] : List (View.Piece (Elt F) S256x4096 .bf16)), y ∈ pc.1.set :=
  View.cover_of_tiled [⟨rA_256x4096, p0⟩] S256x4096.size (by rfl) y

set_option maxHeartbeats 4000000 in
/-- The body on whole staging memrefs, the inputs' at contents `x·` and the output's at anything, runs to the
    continuation holding the inputs' as they were and the output's at `out0` of them. -/
theorem sound_kernel0 (c : Dev nD) (E : Set ℕ) (i : grid0.Coords) (arg1 : Memref sig .tc .vmem S256x4096 .f32) (harg1 : arg1.IsWhole) (arg2 : Memref sig .tc .vmem S256x64 .f32) (harg2 : arg2.IsWhole) (arg3 : Memref sig .tc .vmem S64x4096 .f32) (harg3 : arg3.IsWhole) (arg4 : Memref sig .tc .vmem S256x64 .f32) (harg4 : arg4.IsWhole) (arg5 : Memref sig .tc .vmem S64x4096 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S256x4096 .bf16) (harg11 : arg11.IsWhole)
    (x0 : Vec F S256x4096 .f32) (x1 : Vec F S256x64 .f32) (x2 : Vec F S64x4096 .f32) (x3 : Vec F S256x64 .f32) (x4 : Vec F S64x4096 .f32) (x5 : Vec F S64 .f32) (x6 : Vec F S64 .f32) (x7 : Vec F S64 .f32) (x8 : Vec F S64 .f32) (x9 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0 x0 x1 x2 x3 x4 x5 x6 x7 x8 x9)) -∗ K ⟨⟩))
      ⊢ wp frame (wpE (defs₀ (F := F)) Variants.none c none) E (cc0__wtilde_kernel i arg1 harg1 arg2 harg2 arg3 harg3 arg4 harg4 arg5 harg5 arg6 harg6 arg7 harg7 arg8 harg8 arg9 harg9 arg10 harg10 arg11 harg11) K := by
  simp only [cc0__wtilde_kernel_eq_skeleton]; unfold cc0__wtilde_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0 _)

/-! ## The proof data of the region's pipeline -/

/-- On core `c`: the arrays as the region finds them; after the body at point `t` each input's buffer at its block
    and the output's at `out0` of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Bits.Region1Defs.lean ====
/-
  The second kernel region (the blocked matrix product with an accumulator kept in scratch): what its three control
  cases are stated over.  The grid is 8 × 4 × 16, the last axis the contraction's blocks; the body clears the
  accumulator where that coordinate is 0, adds one block product at every point, and where the coordinate is 15
  stores accumulator + bias into the output block, which is idle (not stored, not written back) elsewhere.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- The first `scf.if`: the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second `scf.if`: the contraction coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging and scratch memrefs -/

abbrev VO1_3 : View sig .tc .vmem S2048x1024 .f32 := (Memref.whole cc1_stg3_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x1024 .f32 := Memref.whole cc1_scratch0
abbrev VS1 : View sig .tc .vmem S2048x1024 .f32 := scM1.view

end Cert.Kernel.Hand

end
-- ==== Proof.Bits.RunA.lean ====
/-
  The second kernel's body where the contraction coordinate is 0 (and is not 15): the accumulator is cleared, one
  block product is added, the output block is left untouched.  The pieces the accumulator ends with are found by
  running the body.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import proofs.«126541_j38568806318480_2_alg».proof.Proof.Bits.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Bits.RunB.lean ====
/-
  The second kernel's body where the contraction coordinate is neither 0 nor 15: one block product is added to the
  accumulator the point before left, the output block is left untouched.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import proofs.«126541_j38568806318480_2_alg».proof.Proof.Bits.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Bits.RunC.lean ====
/-
  The second kernel's body where the contraction coordinate is 15: the last block product is added to the
  accumulator, and accumulator + bias (the bias row repeated down the rows) is stored into the output block, whole.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import proofs.«126541_j38568806318480_2_alg».proof.Proof.Bits.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Bits.Region1.lean ====
/-
  The second kernel region, at a parameter `V` (the contents the region finds): what the accumulator and the output
  block hold after every grid point, by recursion on the point (the case the point is in, run on the point's
  blocks, over the accumulator the point before left), the pipeline's proof data with the accumulator's contents
  carried in the region invariant, and the body obligation at every point.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import proofs.«126541_j38568806318480_2_alg».proof.Proof.Bits.RunA
import proofs.«126541_j38568806318480_2_alg».proof.Proof.Bits.RunB
import proofs.«126541_j38568806318480_2_alg».proof.Proof.Bits.RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

def out1_A_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y
/-- The accumulator after a point where the contraction coordinate is 0. -/
def sout1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).2.1)

def out1_B_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y
/-- The accumulator after a point in the middle of the contraction. -/
def sout1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y
/-- The output block after a point where the contraction coordinate is 15. -/
def out1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y
def sout1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-! ## The scoped buffers the kernel does not name -/

/-- The core's scoped buffers that are neither a staging buffer of this pipeline nor the accumulator, each at
    some contents: the first region's staging buffers. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

theorem scratch_eq (c : Dev nD) : (iprop(∃ d, owns (c : Thread nD τ) scM1 fullShare d) : sProp 𝕄)
    = iprop(∃ f : Buf (Elt F) ((c : Thread nD τ).loc cc1_scratch0), ((c : Thread nD τ).loc cc1_scratch0) ↦{fullShare} f) := by
  simp only [scM1, owns_whole]; rfl

/-- The class invariant (every scoped buffer outside the pipeline's staging at anything, the generator register
    at some state) splits into those others, the accumulator at anything, and the register, -/
theorem PhiA1_split (c : Dev nD) : (Pipeline.ΦA spec1 c : sProp 𝕄) ⊢ iprop(others c ∗ (∃ d, owns (c : Thread nD τ) scM1 fullShare d) ∗ (∃ r, prngReg c r)) := by
  unfold Pipeline.ΦA others; rw [scopedRest1_eq, scratch_eq]
  iintro ⟨⟨Hb0, Hb1, Hb2, Hb3, Hb4, Hb5, Hb6, Hb7, Hb8, Hb9, Hb10, Hb11, Hb12, Hb13, Hb14, HS⟩, Hg⟩
  isplitl [Hb0 Hb1 Hb2 Hb3 Hb4 Hb5 Hb6 Hb7 Hb8 Hb9 Hb10 Hb11 Hb12 Hb13 Hb14]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14
  isplitl [HS]; · iexact HS
  iexact Hg

/-- and is made of them again. -/
theorem PhiA1_join (c : Dev nD) : iprop(others c ∗ (∃ d, owns (c : Thread nD τ) scM1 fullShare d) ∗ (∃ r, prngReg c r)) ⊢ (Pipeline.ΦA spec1 c : sProp 𝕄) := by
  unfold Pipeline.ΦA others; rw [scopedRest1_eq, scratch_eq]
  iintro ⟨⟨Hb0, Hb1, Hb2, Hb3, Hb4, Hb5, Hb6, Hb7, Hb8, Hb9, Hb10, Hb11, Hb12, Hb13, Hb14⟩, HS, Hg⟩
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  isplitl [Hb10]; · iexact Hb10
  isplitl [Hb11]; · iexact Hb11
  isplitl [Hb12]; · iexact Hb12
  isplitl [Hb13]; · iexact Hb13
  isplitl [Hb14]; · iexact Hb14
  iexact HS

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- After the body at position `n`: (the output block, the accumulator) — the case the position's residue mod 16
    selects, run at the point's memrefs and input blocks, over the accumulator position `n - 1` left. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other scoped
    buffers at anything, the accumulator at what the point before left, the generator register at some state. -/
def PhiS (c : Dev nD) : (n : ℕ) → n ≤ cfg1.N → sProp 𝕄
  | 0, _ => Pipeline.ΦA spec1 c
  | n + 1, hn => iprop(others c ∗ owns (c : Thread nD τ) scM1 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others c ∗ owns (c : Thread nD τ) scM1 fullShare ((outsAt1 V c n hn).2) ∗ (∃ r, prngReg c r)) := rfl
theorem PhiS_pos (c : Dev nD) (n : ℕ) (h : n ≤ cfg1.N) (hz : n ≠ 0) :
    PhiS V c n h = iprop(others c ∗ owns (c : Thread nD τ) scM1 fullShare ((outsAt1 V c (n - 1) (by omega)).2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
/-- The body at any point: the residue of the position mod 16 says which case the point is in; the invariant
    hands the body the accumulator at what the point before left (at anything at the very first point), and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  by_cases h0 : t.val % 16 = 0
  · by_cases h1 : t.val % 16 = 15
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := PhiA1_split c $$ HΦ
        icases HΦ' with ⟨Hoth, HS0, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth]; · iexact Hoth
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitl [Hoth]; · iexact Hoth
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's contents are forgotten. -/
theorem Phi_last1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 512 := N_1; omega)]
  iintro ⟨Hoth, HS0, Hg⟩
  iapply PhiA1_join c
  isplitl [Hoth]; · iexact Hoth
  isplitl [HS0]; · iexists _; iexact HS0
  iexact Hg

/-- The same, with the class invariant opened. -/
theorem Phi_last1' (c : Dev nD) : (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) :=
  (Phi_last1 V c).trans (by unfold Pipeline.ΦA; exact BI.Entails.refl _)

/-- What the last point's invariant gives back: the generator register, no semaphore of the kernel's own, the scoped rest. -/
theorem hout1 (c : Dev nD) : (dat1 V c).Φ (Fin.last cfg1.N) ⊢ (iprop((∃ r, prngReg c r) ∗ BI.emp ∗ Pipeline.scopedRest (Ix := Unit) (Name := ℕ) (U := UR sig nD τ) (Lvl := ℕ) (Val := Elt F) spec1 c) : sProp 𝕄) := by
  iintro H
  ihave H' := Phi_last1' V c $$ H
  icases H' with ⟨Hr, Hp⟩
  isplitl [Hp]; · iexact Hp
  isplitr; · iempintro
  iexact Hr

end Region1

end Cert.Kernel.Hand

end
-- ==== Proof.Bits.Run.lean ====
/-
  The whole program's run: @main is four segments — two host operations (the input reshaped to rows and rounded),
  the prologue region, the matrix-product region, one host operation (the rows reshaped back).  The contents of
  the core's buffers at each boundary are a fold from the launch memory: a host stretch applies its operations, a
  region leaves its arrays at what its write-backs fold to.  Every weakly fair execution terminates with every
  unscoped buffer at the last boundary's contents; no segment writes an argument.
-/
import proofs.«126541_j38568806318480_2_alg».proof.Proof.Gen.Kernel.Launch
import proofs.«126541_j38568806318480_2_alg».proof.Proof.Gen.Kernel.Skeleton
import proofs.«126541_j38568806318480_2_alg».proof.Proof.Gen.Kernel.Points
import proofs.«126541_j38568806318480_2_alg».proof.Proof.Gen.Kernel.Regions
import proofs.«126541_j38568806318480_2_alg».proof.Proof.Bits.Region0
import proofs.«126541_j38568806318480_2_alg».proof.Proof.Bits.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the prologue region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the prologue region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the matrix-product region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: what the program ends with. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := (W2_arr m c 5).trans (((dat0 (V1 m) c).arrAt_in 5 rfl _).trans (A_eq0 (V1 m) c 5))
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := (W2_arr m c 2).trans (((dat0 (V1 m) c).arrAt_in 2 rfl _).trans (A_eq0 (V1 m) c 2))
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := (W2_arr m c 3).trans (((dat0 (V1 m) c).arrAt_in 3 rfl _).trans (A_eq0 (V1 m) c 3))
    _ = W0 m c (Proc.devRef .tc main_arg6) := StableHlo.after_of_writes_sub hostOps0 _ hostOps0_writes (r := main_arg6) (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := (W2_arr m c 8).trans (((dat0 (V1 m) c).arrAt_in 8 rfl _).trans (A_eq0 (V1 m) c 8))
    _ = W0 m c (Proc.devRef .tc main_arg7) := StableHlo.after_of_writes_sub hostOps0 _ hostOps0_writes (r := main_arg7) (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (r := main_arg8) (by decide)
    _ = W2 m c (Proc.devRef .tc main_arg8) := W3_of_ne m c main_arg8 (by decide)
    _ = W1 m c (Proc.devRef .tc main_arg8) := (W2_arr m c 4).trans (((dat0 (V1 m) c).arrAt_in 4 rfl _).trans (A_eq0 (V1 m) c 4))
    _ = W0 m c (Proc.devRef .tc main_arg8) := StableHlo.after_of_writes_sub hostOps0 _ hostOps0_writes (r := main_arg8) (by decide)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (r := main_arg9) (by decide)
    _ = W2 m c (Proc.devRef .tc main_arg9) := W3_of_ne m c main_arg9 (by decide)
    _ = W1 m c (Proc.devRef .tc main_arg9) := (W2_arr m c 6).trans (((dat0 (V1 m) c).arrAt_in 6 rfl _).trans (A_eq0 (V1 m) c 6))
    _ = W0 m c (Proc.devRef .tc main_arg9) := StableHlo.after_of_writes_sub hostOps0 _ hostOps0_writes (r := main_arg9) (by decide)
    _ = m ((c : Thread nD τ).loc main_arg9) := rfl

theorem W4_main_arg10 (c : Dev nD) : W4 m c (Proc.devRef .tc main_arg10) = m ((c : Thread nD τ).loc main_arg10) :=
  calc W4 m c (Proc.devRef .tc main_arg10)
    _ = W3 m c (Proc.devRef .tc main_arg10) := StableHlo.after_of_writes_sub hostOps2 _ hostOps2_writes (r := main_arg10) (by decide)
    _ = W2 m c (Proc.devRef .tc main_arg10) := W3_of_ne m c main_arg10 (by decide)
    _ = W1 m c (Proc.devRef .tc main_arg10) := (W2_arr m c 7).trans (((dat0 (V1 m) c).arrAt_in 7 rfl _).trans (A_eq0 (V1 m) c 7))
    _ = W0 m c (Proc.devRef .tc main_arg10) := StableHlo.after_of_writes_sub hostOps0 _ hostOps0_writes (r := main_arg10) (by decide)
    _ = m ((c : Thread nD τ).loc main_arg10) := rfl

theorem W4_main_arg11 (c : Dev nD) : W4 m c (Proc.devRef .tc main_arg11) = m ((c : Thread nD τ).loc main_arg11) :=
  calc W4 m c (Proc.devRef .tc main_arg11)
    _ = W3 m c (Proc.devRef .tc main_arg11) := StableHlo.after_of_writes_sub hostOps2 _ hostOps2_writes (r := main_arg11) (by decide)
    _ = W2 m c (Proc.devRef .tc main_arg11) := W3_of_ne m c main_arg11 (by decide)
    _ = W1 m c (Proc.devRef .tc main_arg11) := (W2_arr m c 9).trans (((dat0 (V1 m) c).arrAt_in 9 rfl _).trans (A_eq0 (V1 m) c 9))
    _ = W0 m c (Proc.devRef .tc main_arg11) := StableHlo.after_of_writes_sub hostOps0 _ hostOps0_writes (r := main_arg11) (by decide)
    _ = m ((c : Thread nD τ).loc main_arg11) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [show (pdats m 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1 (V2 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (StableHlo.after hostOps2 (W3 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c)⟩) (run_main m ρ)

end Cert.Kernel.Hand

end
-- ==== Proof.Ideal.Region0.lean ====
/-
  The first kernel region (the prologue that builds the corrected weight matrix): at a parameter `V`, the
  contents the region finds in the core's buffers.  Each of the ten input windows hands the body its block of
  the array it stages; the body's one store covers the output block whole, so what it leaves is one pure
  function `out0` of the ten input blocks: W-block + (U_top-block · relu(S_top·alpha + beta)) · Vh_top
  + (U_tail-block · S_tail) · (R · Vh_tail), every factor rounded as the program says.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (where it did not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (where it did not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (where it did not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (where it did not, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not (where it did not, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or not (where it did not, the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the pipeline fetched it there
    or not (where it did not, the block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the pipeline fetched it there
    or not (where it did not, the block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether the pipeline fetched it there
    or not (where it did not, the block index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, whether the pipeline fetched it there
    or not (where it did not, the block index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole block -/

abbrev rA_64 : Rect S64 := Rect.unit (s := S64) ![0] S64.size inb_S64_S64_0
abbrev rA_256x64 : Rect S256x64 := Rect.unit (s := S256x64) ![0, 0] S256x64.size inb_S256x64_S256x64_0_0
abbrev rA_64x4096 : Rect S64x4096 := Rect.unit (s := S64x4096) ![0, 0] S64x4096.size inb_S64x4096_S64x4096_0_0
abbrev rA_64x64 : Rect S64x64 := Rect.unit (s := S64x64) ![0, 0] S64x64.size inb_S64x64_S64x64_0_0
abbrev rA_256x4096 : Rect S256x4096 := Rect.unit (s := S256x4096) ![0, 0] S256x4096.size inb_S256x4096_S256x4096_0_0

/-- What the body leaves in the output window's staging buffer, from the ten input blocks (in window order:
    W, U_top, Vh_top, U_tail, Vh_tail, S_top, alpha, beta, S_tail, R): its one store, as a piece. -/
def out0 (x0 : Vec F S256x4096 .f32) (x1 : Vec F S256x64 .f32) (x2 : Vec F S64x4096 .f32) (x3 : Vec F S256x64 .f32) (x4 : Vec F S64x4096 .f32)
    (x5 x6 x7 x8 : Vec F S64 .f32) (x9 : Vec F S64x64 .f32) : Vec F S256x4096 .bf16 :=
  View.canon [⟨rA_256x4096, k0_pay1 (View.ld x5 rA_64) (View.ld x6 rA_64) (View.ld x7 rA_64) (View.ld x1 rA_256x64) (View.ld x3 rA_256x64)
    (View.ld x8 rA_64) (View.ld x2 rA_64x4096) (View.ld x4 rA_64x4096) (View.ld x9 rA_64x64) (View.ld x0 rA_256x4096)⟩]

/-- The one store covers the block. -/
theorem cover0 (p0 : Vec F S256x4096 .bf16) (y : S256x4096.Idx) :
    ∃ pc ∈ ([⟨rA_256x4096, p0⟩] : List (View.Piece (Elt F) S256x4096 .bf16)), y ∈ pc.1.set :=
  View.cover_of_tiled [⟨rA_256x4096, p0⟩] S256x4096.size (by rfl) y

set_option maxHeartbeats 4000000 in
/-- The body on whole staging memrefs, the inputs' at contents `x·` and the output's at anything, runs to the
    continuation holding the inputs' as they were and the output's at `out0` of them. -/
theorem sound_kernel0 (c : Dev nD) (E : Set ℕ) (i : grid0.Coords) (arg1 : Memref sig .tc .vmem S256x4096 .f32) (harg1 : arg1.IsWhole) (arg2 : Memref sig .tc .vmem S256x64 .f32) (harg2 : arg2.IsWhole) (arg3 : Memref sig .tc .vmem S64x4096 .f32) (harg3 : arg3.IsWhole) (arg4 : Memref sig .tc .vmem S256x64 .f32) (harg4 : arg4.IsWhole) (arg5 : Memref sig .tc .vmem S64x4096 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S256x4096 .bf16) (harg11 : arg11.IsWhole)
    (x0 : Vec F S256x4096 .f32) (x1 : Vec F S256x64 .f32) (x2 : Vec F S64x4096 .f32) (x3 : Vec F S256x64 .f32) (x4 : Vec F S64x4096 .f32) (x5 : Vec F S64 .f32) (x6 : Vec F S64 .f32) (x7 : Vec F S64 .f32) (x8 : Vec F S64 .f32) (x9 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0 x0 x1 x2 x3 x4 x5 x6 x7 x8 x9)) -∗ K ⟨⟩))
      ⊢ wp frame (wpE (defs₀ (F := F)) Variants.none c none) E (cc0__wtilde_kernel i arg1 harg1 arg2 harg2 arg3 harg3 arg4 harg4 arg5 harg5 arg6 harg6 arg7 harg7 arg8 harg8 arg9 harg9 arg10 harg10 arg11 harg11) K := by
  simp only [cc0__wtilde_kernel_eq_skeleton]; unfold cc0__wtilde_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0 _)

/-! ## The proof data of the region's pipeline -/

/-- On core `c`: the arrays as the region finds them; after the body at point `t` each input's buffer at its block
    and the output's at `out0` of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Ideal.Region1Defs.lean ====
/-
  The second kernel region (the blocked matrix product with an accumulator kept in scratch): what its three control
  cases are stated over.  The grid is 8 × 4 × 16, the last axis the contraction's blocks; the body clears the
  accumulator where that coordinate is 0, adds one block product at every point, and where the coordinate is 15
  stores accumulator + bias into the output block, which is idle (not stored, not written back) elsewhere.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- The first `scf.if`: the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second `scf.if`: the contraction coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging and scratch memrefs -/

abbrev VO1_3 : View sig .tc .vmem S2048x1024 .f32 := (Memref.whole cc1_stg3_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x1024 .f32 := Memref.whole cc1_scratch0
abbrev VS1 : View sig .tc .vmem S2048x1024 .f32 := scM1.view

end Cert.KernelIdeal.Hand

end
-- ==== Proof.Ideal.RunA.lean ====
/-
  The second kernel's body where the contraction coordinate is 0 (and is not 15): the accumulator is cleared, one
  block product is added, the output block is left untouched.  The pieces the accumulator ends with are found by
  running the body.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import proofs.«126541_j38568806318480_2_alg».proof.Proof.Ideal.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Ideal.RunB.lean ====
/-
  The second kernel's body where the contraction coordinate is neither 0 nor 15: one block product is added to the
  accumulator the point before left, the output block is left untouched.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import proofs.«126541_j38568806318480_2_alg».proof.Proof.Ideal.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Ideal.RunC.lean ====
/-
  The second kernel's body where the contraction coordinate is 15: the last block product is added to the
  accumulator, and accumulator + bias (the bias row repeated down the rows) is stored into the output block, whole.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import proofs.«126541_j38568806318480_2_alg».proof.Proof.Ideal.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.Ideal.Region1.lean ====
/-
  The second kernel region, at a parameter `V` (the contents the region finds): what the accumulator and the output
  block hold after every grid point, by recursion on the point (the case the point is in, run on the point's
  blocks, over the accumulator the point before left), the pipeline's proof data with the accumulator's contents
  carried in the region invariant, and the body obligation at every point.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import proofs.«126541_j38568806318480_2_alg».proof.Proof.Ideal.RunA
import proofs.«126541_j38568806318480_2_alg».proof.Proof.Ideal.RunB
import proofs.«126541_j38568806318480_2_alg».proof.Proof.Ideal.RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

def out1_A_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y
/-- The accumulator after a point where the contraction coordinate is 0. -/
def sout1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).2.1)

def out1_B_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y
/-- The accumulator after a point in the middle of the contraction. -/
def sout1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y
/-- The output block after a point where the contraction coordinate is 15. -/
def out1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y
def sout1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-! ## The scoped buffers the kernel does not name -/

/-- The core's scoped buffers that are neither a staging buffer of this pipeline nor the accumulator, each at
    some contents: the first region's staging buffers. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

theorem scratch_eq (c : Dev nD) : (iprop(∃ d, owns (c : Thread nD τ) scM1 fullShare d) : sProp 𝕄)
    = iprop(∃ f : Buf (Elt F) ((c : Thread nD τ).loc cc1_scratch0), ((c : Thread nD τ).loc cc1_scratch0) ↦{fullShare} f) := by
  simp only [scM1, owns_whole]; rfl

/-- The class invariant (every scoped buffer outside the pipeline's staging at anything, the generator register
    at some state) splits into those others, the accumulator at anything, and the register, -/
theorem PhiA1_split (c : Dev nD) : (Pipeline.ΦA spec1 c : sProp 𝕄) ⊢ iprop(others c ∗ (∃ d, owns (c : Thread nD τ) scM1 fullShare d) ∗ (∃ r, prngReg c r)) := by
  unfold Pipeline.ΦA others; rw [scopedRest1_eq, scratch_eq]
  iintro ⟨⟨Hb0, Hb1, Hb2, Hb3, Hb4, Hb5, Hb6, Hb7, Hb8, Hb9, Hb10, Hb11, Hb12, Hb13, Hb14, HS⟩, Hg⟩
  isplitl [Hb0 Hb1 Hb2 Hb3 Hb4 Hb5 Hb6 Hb7 Hb8 Hb9 Hb10 Hb11 Hb12 Hb13 Hb14]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14
  isplitl [HS]; · iexact HS
  iexact Hg

/-- and is made of them again. -/
theorem PhiA1_join (c : Dev nD) : iprop(others c ∗ (∃ d, owns (c : Thread nD τ) scM1 fullShare d) ∗ (∃ r, prngReg c r)) ⊢ (Pipeline.ΦA spec1 c : sProp 𝕄) := by
  unfold Pipeline.ΦA others; rw [scopedRest1_eq, scratch_eq]
  iintro ⟨⟨Hb0, Hb1, Hb2, Hb3, Hb4, Hb5, Hb6, Hb7, Hb8, Hb9, Hb10, Hb11, Hb12, Hb13, Hb14⟩, HS, Hg⟩
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  isplitl [Hb10]; · iexact Hb10
  isplitl [Hb11]; · iexact Hb11
  isplitl [Hb12]; · iexact Hb12
  isplitl [Hb13]; · iexact Hb13
  isplitl [Hb14]; · iexact Hb14
  iexact HS

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- After the body at position `n`: (the output block, the accumulator) — the case the position's residue mod 16
    selects, run at the point's memrefs and input blocks, over the accumulator position `n - 1` left. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other scoped
    buffers at anything, the accumulator at what the point before left, the generator register at some state. -/
def PhiS (c : Dev nD) : (n : ℕ) → n ≤ cfg1.N → sProp 𝕄
  | 0, _ => Pipeline.ΦA spec1 c
  | n + 1, hn => iprop(others c ∗ owns (c : Thread nD τ) scM1 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others c ∗ owns (c : Thread nD τ) scM1 fullShare ((outsAt1 V c n hn).2) ∗ (∃ r, prngReg c r)) := rfl
theorem PhiS_pos (c : Dev nD) (n : ℕ) (h : n ≤ cfg1.N) (hz : n ≠ 0) :
    PhiS V c n h = iprop(others c ∗ owns (c : Thread nD τ) scM1 fullShare ((outsAt1 V c (n - 1) (by omega)).2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
/-- The body at any point: the residue of the position mod 16 says which case the point is in; the invariant
    hands the body the accumulator at what the point before left (at anything at the very first point), and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  by_cases h0 : t.val % 16 = 0
  · by_cases h1 : t.val % 16 = 15
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := PhiA1_split c $$ HΦ
        icases HΦ' with ⟨Hoth, HS0, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth]; · iexact Hoth
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitl [Hoth]; · iexact Hoth
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's contents are forgotten. -/
theorem Phi_last1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 512 := N_1; omega)]
  iintro ⟨Hoth, HS0, Hg⟩
  iapply PhiA1_join c
  isplitl [Hoth]; · iexact Hoth
  isplitl [HS0]; · iexists _; iexact HS0
  iexact Hg

/-- The same, with the class invariant opened. -/
theorem Phi_last1' (c : Dev nD) : (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) :=
  (Phi_last1 V c).trans (by unfold Pipeline.ΦA; exact BI.Entails.refl _)

/-- What the last point's invariant gives back: the generator register, no semaphore of the kernel's own, the scoped rest. -/
theorem hout1 (c : Dev nD) : (dat1 V c).Φ (Fin.last cfg1.N) ⊢ (iprop((∃ r, prngReg c r) ∗ BI.emp ∗ Pipeline.scopedRest (Ix := Unit) (Name := ℕ) (U := UR sig nD τ) (Lvl := ℕ) (Val := Elt F) spec1 c) : sProp 𝕄) := by
  iintro H
  ihave H' := Phi_last1' V c $$ H
  icases H' with ⟨Hr, Hp⟩
  isplitl [Hp]; · iexact Hp
  isplitr; · iempintro
  iexact Hr

end Region1

end Cert.KernelIdeal.Hand

end
-- ==== Proof.Ideal.Run.lean ====
/-
  The whole program's run: @main is four segments — two host operations (the input reshaped to rows and rounded),
  the prologue region, the matrix-product region, one host operation (the rows reshaped back).  The contents of
  the core's buffers at each boundary are a fold from the launch memory: a host stretch applies its operations, a
  region leaves its arrays at what its write-backs fold to.  Every weakly fair execution terminates with every
  unscoped buffer at the last boundary's contents; no segment writes an argument.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import proofs.«126541_j38568806318480_2_alg».proof.Proof.Gen.KernelIdeal.Regions
import proofs.«126541_j38568806318480_2_alg».proof.Proof.Ideal.Region0
import proofs.«126541_j38568806318480_2_alg».proof.Proof.Ideal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the prologue region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the prologue region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the matrix-product region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: what the program ends with. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := (W2_arr m c 5).trans (((dat0 (V1 m) c).arrAt_in 5 rfl _).trans (A_eq0 (V1 m) c 5))
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := (W2_arr m c 2).trans (((dat0 (V1 m) c).arrAt_in 2 rfl _).trans (A_eq0 (V1 m) c 2))
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := (W2_arr m c 3).trans (((dat0 (V1 m) c).arrAt_in 3 rfl _).trans (A_eq0 (V1 m) c 3))
    _ = W0 m c (Proc.devRef .tc main_arg6) := StableHlo.after_of_writes_sub hostOps0 _ hostOps0_writes (r := main_arg6) (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := (W2_arr m c 8).trans (((dat0 (V1 m) c).arrAt_in 8 rfl _).trans (A_eq0 (V1 m) c 8))
    _ = W0 m c (Proc.devRef .tc main_arg7) := StableHlo.after_of_writes_sub hostOps0 _ hostOps0_writes (r := main_arg7) (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (r := main_arg8) (by decide)
    _ = W2 m c (Proc.devRef .tc main_arg8) := W3_of_ne m c main_arg8 (by decide)
    _ = W1 m c (Proc.devRef .tc main_arg8) := (W2_arr m c 4).trans (((dat0 (V1 m) c).arrAt_in 4 rfl _).trans (A_eq0 (V1 m) c 4))
    _ = W0 m c (Proc.devRef .tc main_arg8) := StableHlo.after_of_writes_sub hostOps0 _ hostOps0_writes (r := main_arg8) (by decide)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (r := main_arg9) (by decide)
    _ = W2 m c (Proc.devRef .tc main_arg9) := W3_of_ne m c main_arg9 (by decide)
    _ = W1 m c (Proc.devRef .tc main_arg9) := (W2_arr m c 6).trans (((dat0 (V1 m) c).arrAt_in 6 rfl _).trans (A_eq0 (V1 m) c 6))
    _ = W0 m c (Proc.devRef .tc main_arg9) := StableHlo.after_of_writes_sub hostOps0 _ hostOps0_writes (r := main_arg9) (by decide)
    _ = m ((c : Thread nD τ).loc main_arg9) := rfl

theorem W4_main_arg10 (c : Dev nD) : W4 m c (Proc.devRef .tc main_arg10) = m ((c : Thread nD τ).loc main_arg10) :=
  calc W4 m c (Proc.devRef .tc main_arg10)
    _ = W3 m c (Proc.devRef .tc main_arg10) := StableHlo.after_of_writes_sub hostOps2 _ hostOps2_writes (r := main_arg10) (by decide)
    _ = W2 m c (Proc.devRef .tc main_arg10) := W3_of_ne m c main_arg10 (by decide)
    _ = W1 m c (Proc.devRef .tc main_arg10) := (W2_arr m c 7).trans (((dat0 (V1 m) c).arrAt_in 7 rfl _).trans (A_eq0 (V1 m) c 7))
    _ = W0 m c (Proc.devRef .tc main_arg10) := StableHlo.after_of_writes_sub hostOps0 _ hostOps0_writes (r := main_arg10) (by decide)
    _ = m ((c : Thread nD τ).loc main_arg10) := rfl

theorem W4_main_arg11 (c : Dev nD) : W4 m c (Proc.devRef .tc main_arg11) = m ((c : Thread nD τ).loc main_arg11) :=
  calc W4 m c (Proc.devRef .tc main_arg11)
    _ = W3 m c (Proc.devRef .tc main_arg11) := StableHlo.after_of_writes_sub hostOps2 _ hostOps2_writes (r := main_arg11) (by decide)
    _ = W2 m c (Proc.devRef .tc main_arg11) := W3_of_ne m c main_arg11 (by decide)
    _ = W1 m c (Proc.devRef .tc main_arg11) := (W2_arr m c 9).trans (((dat0 (V1 m) c).arrAt_in 9 rfl _).trans (A_eq0 (V1 m) c 9))
    _ = W0 m c (Proc.devRef .tc main_arg11) := StableHlo.after_of_writes_sub hostOps0 _ hostOps0_writes (r := main_arg11) (by decide)
    _ = m ((c : Thread nD τ).loc main_arg11) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [show (pdats m 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1 (V2 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (StableHlo.after hostOps2 (W3 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c)⟩) (run_main m ρ)

end Cert.KernelIdeal.Hand

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.Pay0.lean ====
/-
  The prologue kernel's payload read at one entry (p, q) of its 256 × 4096 block, on the extended reals: the W entry
  plus the two rank-64 corrections, every rounding the identity —
  W(p, q) + Σ_r (U_top(p, r) · max (S_top(r) · α(r) + β(r)) 0) · Vh_top(r, q)
          + Σ_r (U_tail(p, r) · S_tail(r)) · (Σ_s R(r, s) · Vh_tail(s, q)).
-/
import proofs.«126541_j38568806318480_2_alg».proof.Proof.Gen.KernelIdeal.Skeleton
import proofs.«126541_j38568806318480_2_alg».proof.Proof.LibMatmulNN
import Idealize.ShloMosaic.PureOps.Ideal.Laws
import Idealize.ShloMosaic.Lib.ValueIdx
import Idealize.ShloMosaic.Lib.ValueLayout

noncomputable section

open scoped BigOperators

namespace Cert.KernelIdeal.Val

open Cert.KernelIdeal Cert.KernelIdeal.Gen Idealize.ShloMosaic Idealize.ShloMosaic.ValueIdx

/-- The 64 × 64 by 64 × 4096 product's dimension record, and the 256 × 64 by 64 × 4096 one. -/
abbrev D1 : DotDims S64x64 S64x4096 S64x4096 := dot_S64x64_S64x4096_S64x4096_1_0_0_1_n_n
abbrev D2 : DotDims S256x64 S64x4096 S256x4096 := dot_S256x64_S64x4096_S256x4096_1_0_0_1_n_n

theorem D1_l0 (j : S64x4096.Idx) (q : D1.contr.Idx) : (D1.lhsIdx j q 0).val = (j 0).val := by
  unfold DotDims.lhsIdx
  rw [dif_neg (show ¬(0 : Fin S64x64.rank) ∈ D1.lhsBatch by decide), dif_pos (show (0 : Fin S64x64.rank) ∈ D1.lhsNonContracting by decide)]
  rfl
theorem D1_l1 (j : S64x4096.Idx) (q : D1.contr.Idx) : (D1.lhsIdx j q 1).val = (q ⟨0, by decide⟩).val :=
  D1.lhsIdx_val_of_single rfl j q
theorem D1_r0 (j : S64x4096.Idx) (q : D1.contr.Idx) : (D1.rhsIdx j q 0).val = (q ⟨0, by decide⟩).val :=
  D1.rhsIdx_val_of_single rfl j q
theorem D1_r1 (j : S64x4096.Idx) (q : D1.contr.Idx) : (D1.rhsIdx j q 1).val = (j 1).val := by
  unfold DotDims.rhsIdx
  rw [dif_neg (show ¬(1 : Fin S64x4096.rank) ∈ D1.rhsBatch by decide), dif_pos (show (1 : Fin S64x4096.rank) ∈ D1.rhsNonContracting by decide)]
  rfl

theorem D2_l0 (j : S256x4096.Idx) (q : D2.contr.Idx) : (D2.lhsIdx j q 0).val = (j 0).val := by
  unfold DotDims.lhsIdx
  rw [dif_neg (show ¬(0 : Fin S256x64.rank) ∈ D2.lhsBatch by decide), dif_pos (show (0 : Fin S256x64.rank) ∈ D2.lhsNonContracting by decide)]
  rfl
theorem D2_l1 (j : S256x4096.Idx) (q : D2.contr.Idx) : (D2.lhsIdx j q 1).val = (q ⟨0, by decide⟩).val :=
  D2.lhsIdx_val_of_single rfl j q
theorem D2_r0 (j : S256x4096.Idx) (q : D2.contr.Idx) : (D2.rhsIdx j q 0).val = (q ⟨0, by decide⟩).val :=
  D2.rhsIdx_val_of_single rfl j q
theorem D2_r1 (j : S256x4096.Idx) (q : D2.contr.Idx) : (D2.rhsIdx j q 1).val = (j 1).val := by
  unfold DotDims.rhsIdx
  rw [dif_neg (show ¬(1 : Fin S64x4096.rank) ∈ D2.rhsBatch by decide), dif_pos (show (1 : Fin S64x4096.rank) ∈ D2.rhsNonContracting by decide)]
  rfl

/-- Entry (r, q) of a 64 × 64 array times a 64 × 4096 array, into zero. -/
theorem mm1 (A : FVec Ideal S64x64 .bf16) (B : FVec Ideal S64x4096 .bf16) (r : Fin 64) (q : Fin 4096) :
    matmul D1 none A B (constant S64x4096 .f32 0x00000000#32) (ix2 r q) = ∑ k : Fin 64, A (ix2 r k) * B (ix2 k q) :=
  Cert.MatmulNN.matmul_nn_apply D1 none rfl rfl D1_l0 D1_l1 D1_r0 D1_r1 A B r q

/-- Entry (p, q) of a 256 × 64 array times a 64 × 4096 array, into zero. -/
theorem mm2 (A : FVec Ideal S256x64 .bf16) (B : FVec Ideal S64x4096 .bf16) (p : Fin 256) (q : Fin 4096) :
    matmul D2 none A B (constant S256x4096 .f32 0x00000000#32) (ix2 p q) = ∑ k : Fin 64, A (ix2 p k) * B (ix2 k q) :=
  Cert.MatmulNN.matmul_nn_apply D2 none rfl rfl D2_l0 D2_l1 D2_r0 D2_r1 A B p q

/-- The gate vector: relu (S_top · α + β). -/
def gateV (v0 v1 v3 : Vec Ideal S64 .f32) : FVec Ideal S64 .f32 :=
  maximumf (addf (mulf v0 v1) v3) (broadcast S64 (Scalar.ofBits (F := Ideal) .f32 0x00000000#32))

theorem gateV_apply (v0 v1 v3 : Vec Ideal S64 .f32) (r : Fin 64) :
    gateV v0 v1 v3 (ix1 r) = max (v0 (ix1 r) * v1 (ix1 r) + v3 (ix1 r)) (Ideal.ofBits .f32 0x00000000#32) := rfl

/-- A 256 × 64 block with every row scaled entry by entry by a 64-vector (the vector made a row, the row repeated). -/
def scaled (u : Vec Ideal S256x64 .f32) (g : FVec Ideal S64 .f32) : FVec Ideal S256x64 .bf16 :=
  truncf .bf16 (mulf u (broadcastTo S256x64 (shapeCast S1x64 g shapeCasts_S64_S1x64) broadcasts_S1x64_S256x64)) bitsLt_bf16_f32

theorem scaled_apply (u : Vec Ideal S256x64 .f32) (g : FVec Ideal S64 .f32) (p : Fin 256) (k : Fin 64) :
    scaled u g (ix2 p k) = u (ix2 p k) * g (ix1 k) := by
  show u (ix2 p k) * broadcastTo S256x64 (shapeCast S1x64 g shapeCasts_S64_S1x64) broadcasts_S1x64_S256x64 (ix2 p k) = _
  rw [broadcastTo_1b_ab_apply, shapeCast_a_1a_apply]

/-- The payload is the sum of the W block and two products of scaled blocks. -/
theorem k0_pay1_eq (v0 v1 v3 : Vec Ideal S64 .f32) (v7 v12 : Vec Ideal S256x64 .f32) (v13 : Vec Ideal S64 .f32)
    (v18 v20 : Vec Ideal S64x4096 .f32) (v22 : Vec Ideal S64x64 .f32) (v28 : Vec Ideal S256x4096 .f32) :
    k0_pay1 v0 v1 v3 v7 v12 v13 v18 v20 v22 v28
      = truncf .bf16 (addf (addf v28 (matmul D2 none (scaled v7 (gateV v0 v1 v3)) (truncf .bf16 v18 bitsLt_bf16_f32) (constant S256x4096 .f32 0x00000000#32)))
          (matmul D2 none (scaled v12 v13) (truncf .bf16 (matmul D1 none (truncf .bf16 v22 bitsLt_bf16_f32) (truncf .bf16 v20 bitsLt_bf16_f32) (constant S64x4096 .f32 0x00000000#32)) bitsLt_bf16_f32) (constant S256x4096 .f32 0x00000000#32))) bitsLt_bf16_f32 := rfl

theorem pay0_apply (v0 v1 v3 : Vec Ideal S64 .f32) (v7 v12 : Vec Ideal S256x64 .f32) (v13 : Vec Ideal S64 .f32)
    (v18 v20 : Vec Ideal S64x4096 .f32) (v22 : Vec Ideal S64x64 .f32) (v28 : Vec Ideal S256x4096 .f32) (p : Fin 256) (q : Fin 4096) :
    k0_pay1 v0 v1 v3 v7 v12 v13 v18 v20 v22 v28 (ix2 p q)
      = v28 (ix2 p q)
        + (∑ r : Fin 64, (v7 (ix2 p r) * max (v0 (ix1 r) * v1 (ix1 r) + v3 (ix1 r)) (Ideal.ofBits .f32 0x00000000#32)) * v18 (ix2 r q))
        + (∑ r : Fin 64, (v12 (ix2 p r) * v13 (ix1 r)) * (∑ s : Fin 64, v22 (ix2 r s) * v20 (ix2 s q))) := by
  rw [k0_pay1_eq]
  show (v28 (ix2 p q) + matmul D2 none (scaled v7 (gateV v0 v1 v3)) (truncf .bf16 v18 bitsLt_bf16_f32) (constant S256x4096 .f32 0x00000000#32) (ix2 p q))
      + matmul D2 none (scaled v12 v13) (truncf .bf16 (matmul D1 none (truncf .bf16 v22 bitsLt_bf16_f32) (truncf .bf16 v20 bitsLt_bf16_f32) (constant S64x4096 .f32 0x00000000#32)) bitsLt_bf16_f32) (constant S256x4096 .f32 0x00000000#32) (ix2 p q) = _
  rw [mm2, mm2]
  refine congrArg₂ (· + ·) (congrArg (v28 (ix2 p q) + ·) (Finset.sum_congr rfl fun r _ => ?_)) (Finset.sum_congr rfl fun r _ => ?_)
  · rw [scaled_apply]; rfl
  · rw [scaled_apply]
    exact congrArg ((v12 (ix2 p r) * v13 (ix1 r)) * ·) (mm1 (truncf .bf16 v22 bitsLt_bf16_f32) (truncf .bf16 v20 bitsLt_bf16_f32) r q)

end Cert.KernelIdeal.Val

end
-- ==== Proof.Spec.lean ====
/-
  The mathematics both programs compute, on the extended reals, over plain coordinates.

  The corrected weight matrix is  C(o, i) = W(o, i) + Σ_r (U_top(o, r) · g(r)) · Vh_top(r, i)
  + Σ_r (U_tail(o, r) · S_tail(r)) · (Σ_q R(r, q) · Vh_tail(q, i)),  with the gate g(r) = max (S_top(r) · α(r) + β(r)) z
  (z the zero both programs write as the same float word), and the result is
  out(b, s, o) = Σ_i x(b, s, i) · C(o, i) + bias(o).

  The kernel takes the contraction Σ_i in sixteen blocks of 256, adding block after block to an accumulator that
  starts from zero.  Sums of extended reals may be regrouped freely (addition is commutative and associative there;
  no distributivity is used), so the blocked accumulation is the whole sum.
-/
import Idealize.ShloMosaic.PureOps.Ideal

noncomputable section

open scoped BigOperators

namespace Cert.Spec

/-- The gate of the top correction: relu (S_top · α + β), the relu's zero a parameter. -/
def gate (z : EReal) (St al be : Fin 64 → EReal) (r : Fin 64) : EReal := max (St r * al r + be r) z

/-- The corrected weight matrix. -/
def corr (z : EReal) (W : Fin 4096 → Fin 4096 → EReal) (Ut : Fin 4096 → Fin 64 → EReal) (St : Fin 64 → EReal)
    (Vt : Fin 64 → Fin 4096 → EReal) (Ul : Fin 4096 → Fin 64 → EReal) (Sl : Fin 64 → EReal) (Vl : Fin 64 → Fin 4096 → EReal)
    (al be : Fin 64 → EReal) (Rm : Fin 64 → Fin 64 → EReal) (o i : Fin 4096) : EReal :=
  W o i + (∑ r : Fin 64, (Ut o r * gate z St al be r) * Vt r i)
    + (∑ r : Fin 64, (Ul o r * Sl r) * (∑ q : Fin 64, Rm r q * Vl q i))

/-- One row of the linear layer against a weight matrix `C` stored row per output: Σ_i x(i) · C(o, i) + bias(o). -/
def lin (xrow : Fin 4096 → EReal) (C : Fin 4096 → Fin 4096 → EReal) (bias : Fin 4096 → EReal) (o : Fin 4096) : EReal :=
  (∑ i : Fin 4096, xrow i * C o i) + bias o

/-! ## The blocked contraction -/

/-- The accumulator after the block numbered `n`: zero plus the first block's sum, then one block's sum added per
    step (the association the kernel's additions have). -/
def acc (z : EReal) (P : ℕ → EReal) : ℕ → EReal
  | 0 => z + P 0
  | n + 1 => acc z P n + P (n + 1)

theorem acc_eq_sum (P : ℕ → EReal) (n : ℕ) : acc 0 P n = ∑ kb ∈ Finset.range (n + 1), P kb := by
  induction n with
  | zero => simp [acc]
  | succ n ih => rw [acc, ih, Finset.sum_range_succ (n := n + 1)]

/-- `n` blocks of `m` consecutive terms are the first `n · m` terms. -/
theorem sum_blocks (h : ℕ → EReal) (m : ℕ) (n : ℕ) :
    ∑ kb ∈ Finset.range n, ∑ k ∈ Finset.range m, h (kb * m + k) = ∑ i ∈ Finset.range (n * m), h i := by
  induction n with
  | zero => simp
  | succ n ih => rw [Finset.sum_range_succ, ih, Nat.succ_mul, Finset.sum_range_add]

/-- The sixteen blocks of 256, accumulated from zero, are the whole contraction over 4096. -/
theorem acc_blocks (h : ℕ → EReal) :
    acc 0 (fun kb => ∑ k ∈ Finset.range 256, h (kb * 256 + k)) 15 = ∑ i : Fin 4096, h i.val := by
  rw [acc_eq_sum, sum_blocks h 256 16, Finset.sum_range]

end Cert.Spec

end
-- ==== Proof.Val0.lean ====
/-
  The prologue region's output array: after the region, the array its output window stages holds, at every entry
  (o, i), the corrected weight C(o, i) of the arrays the region found.  Point t of the 16-point grid writes rows
  256·t … 256·t + 255 (all 4096 columns); the blocks tile the array.
-/
import proofs.«126541_j38568806318480_2_alg».proof.Proof.Ideal.Region0
import proofs.«126541_j38568806318480_2_alg».proof.Proof.Pay0
import proofs.«126541_j38568806318480_2_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- The corrected weight matrix as an array function of the ten arrays (in the order W, U_top, Vh_top, U_tail,
    Vh_tail, S_top, α, β, S_tail, R). -/
def G0 (W : S4096x4096.Idx → Elt Ideal .f32) (Ut : S4096x64.Idx → Elt Ideal .f32) (Vt : S64x4096.Idx → Elt Ideal .f32)
    (Ul : S4096x64.Idx → Elt Ideal .f32) (Vl : S64x4096.Idx → Elt Ideal .f32) (St al be Sl : S64.Idx → Elt Ideal .f32)
    (Rm : S64x64.Idx → Elt Ideal .f32) : S4096x4096.Idx → Elt Ideal .bf16 :=
  fun j => Cert.Spec.corr (Ideal.ofBits .f32 0x00000000#32) (fun o i => W (ix2 o i)) (fun o r => Ut (ix2 o r)) (fun r => St (ix1 r))
    (fun r i => Vt (ix2 r i)) (fun o r => Ul (ix2 o r)) (fun r => Sl (ix1 r)) (fun r i => Vl (ix2 r i))
    (fun r => al (ix1 r)) (fun r => be (ix1 r)) (fun r s => Rm (ix2 r s)) (j 0) (j 1)

/-- The printed index maps, decided over the grid: the row-blocked windows sit at block row `t`, the others at
    their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 ∧ win0_8.index t (0 : Fin 1) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-! ## Each window's block read at coordinates -/

section Blocks
variable (c : Dev nD) (t : Fin cfg0.N)

theorem blk0_0 (p : Fin 256) (q : Fin 4096) (o : Fin 4096) (ho : o.val = t.val * 256 + p.val) :
    iblk0 V c 0 t (ix2 p q) = V c main_arg1 (ix2 o q) := by
  show V c main_arg1 (((cfg0.win 0).blk t).view.emb (ix2 p q)) = V c main_arg1 (ix2 o q)
  refine congrArg (V c main_arg1) (funext fun a => Fin.ext ?_)
  have e := idx0 t
  match a with
  | ⟨0, _⟩ => show win0_0.index t (0 : Fin 2) * 256 + 1 * p.val = o.val; omega
  | ⟨1, _⟩ => show win0_0.index t (1 : Fin 2) * 4096 + 1 * q.val = q.val; omega

theorem blk0_1 (p : Fin 256) (r : Fin 64) (o : Fin 4096) (ho : o.val = t.val * 256 + p.val) :
    iblk0 V c 1 t (ix2 p r) = V c main_arg3 (ix2 o r) := by
  show V c main_arg3 (((cfg0.win 1).blk t).view.emb (ix2 p r)) = V c main_arg3 (ix2 o r)
  refine congrArg (V c main_arg3) (funext fun a => Fin.ext ?_)
  have e := idx0 t
  match a with
  | ⟨0, _⟩ => show win0_1.index t (0 : Fin 2) * 256 + 1 * p.val = o.val; omega
  | ⟨1, _⟩ => show win0_1.index t (1 : Fin 2) * 64 + 1 * r.val = r.val; omega

theorem blk0_2 (r : Fin 64) (q : Fin 4096) : iblk0 V c 2 t (ix2 r q) = V c main_arg5 (ix2 r q) := by
  show V c main_arg5 (((cfg0.win 2).blk t).view.emb (ix2 r q)) = V c main_arg5 (ix2 r q)
  refine congrArg (V c main_arg5) (funext fun a => Fin.ext ?_)
  have e := idx0 t
  match a with
  | ⟨0, _⟩ => show win0_2.index t (0 : Fin 2) * 64 + 1 * r.val = r.val; omega
  | ⟨1, _⟩ => show win0_2.index t (1 : Fin 2) * 4096 + 1 * q.val = q.val; omega

theorem blk0_3 (p : Fin 256) (r : Fin 64) (o : Fin 4096) (ho : o.val = t.val * 256 + p.val) :
    iblk0 V c 3 t (ix2 p r) = V c main_arg6 (ix2 o r) := by
  show V c main_arg6 (((cfg0.win 3).blk t).view.emb (ix2 p r)) = V c main_arg6 (ix2 o r)
  refine congrArg (V c main_arg6) (funext fun a => Fin.ext ?_)
  have e := idx0 t
  match a with
  | ⟨0, _⟩ => show win0_3.index t (0 : Fin 2) * 256 + 1 * p.val = o.val; omega
  | ⟨1, _⟩ => show win0_3.index t (1 : Fin 2) * 64 + 1 * r.val = r.val; omega

theorem blk0_4 (r : Fin 64) (q : Fin 4096) : iblk0 V c 4 t (ix2 r q) = V c main_arg8 (ix2 r q) := by
  show V c main_arg8 (((cfg0.win 4).blk t).view.emb (ix2 r q)) = V c main_arg8 (ix2 r q)
  refine congrArg (V c main_arg8) (funext fun a => Fin.ext ?_)
  have e := idx0 t
  match a with
  | ⟨0, _⟩ => show win0_4.index t (0 : Fin 2) * 64 + 1 * r.val = r.val; omega
  | ⟨1, _⟩ => show win0_4.index t (1 : Fin 2) * 4096 + 1 * q.val = q.val; omega

theorem blk0_5 (r : Fin 64) : iblk0 V c 5 t (ix1 r) = V c main_arg4 (ix1 r) := by
  show V c main_arg4 (((cfg0.win 5).blk t).view.emb (ix1 r)) = V c main_arg4 (ix1 r)
  refine congrArg (V c main_arg4) (funext fun a => Fin.ext ?_)
  have e := idx0 t
  match a with
  | ⟨0, _⟩ => show win0_5.index t (0 : Fin 1) * 64 + 1 * r.val = r.val; omega

theorem blk0_6 (r : Fin 64) : iblk0 V c 6 t (ix1 r) = V c main_arg9 (ix1 r) := by
  show V c main_arg9 (((cfg0.win 6).blk t).view.emb (ix1 r)) = V c main_arg9 (ix1 r)
  refine congrArg (V c main_arg9) (funext fun a => Fin.ext ?_)
  have e := idx0 t
  match a with
  | ⟨0, _⟩ => show win0_6.index t (0 : Fin 1) * 64 + 1 * r.val = r.val; omega

theorem blk0_7 (r : Fin 64) : iblk0 V c 7 t (ix1 r) = V c main_arg10 (ix1 r) := by
  show V c main_arg10 (((cfg0.win 7).blk t).view.emb (ix1 r)) = V c main_arg10 (ix1 r)
  refine congrArg (V c main_arg10) (funext fun a => Fin.ext ?_)
  have e := idx0 t
  match a with
  | ⟨0, _⟩ => show win0_7.index t (0 : Fin 1) * 64 + 1 * r.val = r.val; omega

theorem blk0_8 (r : Fin 64) : iblk0 V c 8 t (ix1 r) = V c main_arg7 (ix1 r) := by
  show V c main_arg7 (((cfg0.win 8).blk t).view.emb (ix1 r)) = V c main_arg7 (ix1 r)
  refine congrArg (V c main_arg7) (funext fun a => Fin.ext ?_)
  have e := idx0 t
  match a with
  | ⟨0, _⟩ => show win0_8.index t (0 : Fin 1) * 64 + 1 * r.val = r.val; omega

theorem blk0_9 (r s : Fin 64) : iblk0 V c 9 t (ix2 r s) = V c main_arg11 (ix2 r s) := by
  show V c main_arg11 (((cfg0.win 9).blk t).view.emb (ix2 r s)) = V c main_arg11 (ix2 r s)
  refine congrArg (V c main_arg11) (funext fun a => Fin.ext ?_)
  have e := idx0 t
  match a with
  | ⟨0, _⟩ => show win0_9.index t (0 : Fin 2) * 64 + 1 * r.val = r.val; omega
  | ⟨1, _⟩ => show win0_9.index t (1 : Fin 2) * 64 + 1 * s.val = s.val; omega

/-- Where entry (p, q) of the output block at point `t` sits in the array. -/
theorem emb0_10 (p : Fin 256) (q : Fin 4096) (o : Fin 4096) (ho : o.val = t.val * 256 + p.val) :
    ((cfg0.win 10).blk t).view.emb (ix2 p q) = ix2 o q := by
  refine funext fun a => Fin.ext ?_
  have e := idx0 t
  match a with
  | ⟨0, _⟩ => show win0_10.index t (0 : Fin 2) * 256 + 1 * p.val = o.val; omega
  | ⟨1, _⟩ => show win0_10.index t (1 : Fin 2) * 4096 + 1 * q.val = q.val; omega

end Blocks

/-- WHAT POINT `t` WRITES BACK is block `t` of the corrected weight matrix of the arrays as the region finds them. -/
theorem flushed0_eq (c : Dev nD) (t : Fin cfg0.N) :
    (dat0 V c).flushed 10 t = ((cfg0.win 10).blk t).view.read (Elt Ideal)
      (G0 (V c main_arg1) (V c main_arg3) (V c main_arg5) (V c main_arg6) (V c main_arg8) (V c main_arg4) (V c main_arg9) (V c main_arg10) (V c main_arg7) (V c main_arg11)) := by
  show (cfg0.win 10).cut (grid0.coords t) ((dat0 V c).after 10 t) = _
  rw [after0_10]
  unfold out0
  rw [View.canon_unit_zero hz2]
  simp only [View.ld_unit_zero (S := S64) hz1, View.ld_unit_zero (S := S256x64) hz2, View.ld_unit_zero (S := S64x4096) hz2,
    View.ld_unit_zero (S := S64x64) hz2, View.ld_unit_zero (S := S256x4096) hz2]
  funext j
  obtain ⟨p, q, rfl⟩ : ∃ (p : Fin 256) (q : Fin 4096), j = ix2 p q := ⟨j 0, j 1, eq_ix2 j⟩
  have ht : t.val < 16 := lt_of_lt_of_eq t.isLt N_0
  obtain ⟨o, ho⟩ : ∃ o : Fin 4096, o.val = t.val * 256 + p.val := ⟨⟨t.val * 256 + p.val, by have := p.isLt; omega⟩, rfl⟩
  refine (pay0_apply (iblk0 V c 5 t) (iblk0 V c 6 t) (iblk0 V c 7 t) (iblk0 V c 1 t) (iblk0 V c 3 t) (iblk0 V c 8 t) (iblk0 V c 2 t) (iblk0 V c 4 t) (iblk0 V c 9 t) (iblk0 V c 0 t) p q).trans ?_
  show _ = G0 (V c main_arg1) (V c main_arg3) (V c main_arg5) (V c main_arg6) (V c main_arg8) (V c main_arg4) (V c main_arg9) (V c main_arg10) (V c main_arg7) (V c main_arg11) (((cfg0.win 10).blk t).view.emb (ix2 p q))
  rw [emb0_10 t p q o ho, blk0_0 V c t p q o ho]
  simp only [blk0_1 V c t p _ o ho, blk0_2 V c t, blk0_3 V c t p _ o ho, blk0_4 V c t, blk0_5 V c t, blk0_6 V c t, blk0_7 V c t, blk0_8 V c t, blk0_9 V c t]
  rfl

/-- An index of the array is in point `t`'s block iff each coordinate is in the block's range on its axis. -/
theorem mem_blk0 (t : Fin cfg0.N) (i : S4096x4096.Idx) :
    i ∈ ((cfg0.win 10).blk t).view.set ↔ ∀ a : Fin 2, win0_10.index t a * S256x4096.size a ≤ (i a).val ∧ (i a).val < win0_10.index t a * S256x4096.size a + S256x4096.size a := by
  show i ∈ ((View.whole main_v2).slice (win0_10.rect t)).set ↔ _
  rw [View.set_slice_whole, Rect.mem_set_unit]
  exact Iff.rfl

/-- Every entry of the array is in the block of the point its row selects. -/
theorem cover0 (i : S4096x4096.Idx) : ∃ t : Fin cfg0.N, (cfg0.win 10).flush t = true ∧ i ∈ ((cfg0.win 10).blk t).view.set := by
  have hi0 : (i 0).val < 4096 := (i 0).isLt
  have hi1 : (i 1).val < 4096 := (i 1).isLt
  have hN : cfg0.N = 16 := N_0
  have hlt : (i 0).val / 256 < cfg0.N := by rw [hN]; omega
  refine ⟨⟨(i 0).val / 256, hlt⟩, flush0_10 _, ?_⟩
  rw [mem_blk0]
  have e := idx0 ⟨(i 0).val / 256, hlt⟩
  have e0 : win0_10.index ⟨(i 0).val / 256, hlt⟩ (0 : Fin 2) = (i 0).val / 256 := e.2.2.2.2.2.2.2.2.2.2.2.2.2.2.2.2.1
  have e1 : win0_10.index ⟨(i 0).val / 256, hlt⟩ (1 : Fin 2) = 0 := e.2.2.2.2.2.2.2.2.2.2.2.2.2.2.2.2.2
  intro a
  match a with
  | ⟨0, _⟩ =>
    show win0_10.index ⟨(i 0).val / 256, hlt⟩ (0 : Fin 2) * 256 ≤ (i 0).val ∧ (i 0).val < win0_10.index ⟨(i 0).val / 256, hlt⟩ (0 : Fin 2) * 256 + 256
    rw [e0]; omega
  | ⟨1, _⟩ =>
    show win0_10.index ⟨(i 0).val / 256, hlt⟩ (1 : Fin 2) * 4096 ≤ (i 1).val ∧ (i 1).val < win0_10.index ⟨(i 0).val / 256, hlt⟩ (1 : Fin 2) * 4096 + 4096
    rw [e1]; omega

/-- THE ARRAY after the region: the corrected weight matrix of the arrays the region found. -/
theorem final0 (c : Dev nD) : (dat0 V c).arrAt 10 cfg0.N
    = G0 (V c main_arg1) (V c main_arg3) (V c main_arg5) (V c main_arg6) (V c main_arg8) (V c main_arg4) (V c main_arg9) (V c main_arg10) (V c main_arg7) (V c main_arg11) :=
  (dat0 V c).arrAt_eq_of_cover 10 _ (fun t _ => flushed0_eq V c t) cover0

end Cert.KernelIdeal.Val

end
-- ==== Proof.Pieces.lean ====
/-
  What each control case of the matrix-product kernel leaves, as the body's payloads of what it was handed: the
  accumulator after a point is (the accumulator before, or the zero block at the first contraction block) plus the
  block product; the output block at the last contraction block is the accumulator plus the bias row.
-/
import proofs.«126541_j38568806318480_2_alg».proof.Proof.Gen.KernelIdeal.Launch
import proofs.«126541_j38568806318480_2_alg».proof.Proof.Gen.KernelIdeal.Skeleton
import proofs.«126541_j38568806318480_2_alg».proof.Proof.Gen.KernelIdeal.Points
import proofs.«126541_j38568806318480_2_alg».proof.Proof.Ideal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl

theorem sout1_B_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x256 .bf16) (x1 : Vec F S1024x256 .bf16) (x2 : Vec F S1024 .f32) (xs0 : Vec F S2048x1024 .f32) :
    sout1_B c i arg3 harg3 arg4 harg4 arg5 harg5 arg6 harg6 arg7 harg7 hc0 hc1 x0 x1 x2 xs0 = k1_pay2 xs0 x0 x1 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz2]
  simp only [View.readAt_eq_ld, harg7.read_unread, harg3.read_unread, harg4.read_unread, harg5.read_unread, View.ld_unit_zero (S := S2048x1024) hz2, View.ld_unit_zero (S := S2048x256) hz2, View.ld_unit_zero (S := S1024x256) hz2, View.ld_unit_zero (S := S1024) hz1]

theorem sout1_A_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x256 .bf16) (x1 : Vec F S1024x256 .bf16) (x2 : Vec F S1024 .f32) :
    sout1_A c i arg3 harg3 arg4 harg4 arg5 harg5 arg6 harg6 arg7 harg7 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero hz2]
  simp only [View.readCov_unit_zero (S := S2048x1024) arg7.view hz2, View.readAt_eq_ld, harg7.read_unread, harg3.read_unread, harg4.read_unread, harg5.read_unread, View.ld_unit_zero (S := S2048x1024) hz2, View.ld_unit_zero (S := S2048x256) hz2, View.ld_unit_zero (S := S1024x256) hz2, View.ld_unit_zero (S := S1024) hz1]

theorem out1_C_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2]
  simp only [View.readCov_unit_zero (S := S2048x1024) arg7.view hz2, View.readAt_eq_ld, harg7.read_unread, harg3.read_unread, harg4.read_unread, harg5.read_unread, View.ld_unit_zero (S := S2048x1024) hz2, View.ld_unit_zero (S := S2048x256) hz2, View.ld_unit_zero (S := S1024x256) hz2, View.ld_unit_zero (S := S1024) hz1]

theorem sout1_C_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x256 .bf16) (x1 : Vec F S1024x256 .bf16) (x2 : Vec F S1024 .f32) (xs0 : Vec F S2048x1024 .f32) :
    sout1_C c i arg3 harg3 arg4 harg4 arg5 harg5 arg6 harg6 arg7 harg7 hc0 hc1 x0 x1 x2 xs0 = k1_pay2 xs0 x0 x1 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readCov_unit_zero (S := S2048x1024) arg7.view hz2, View.readAt_eq_ld, harg7.read_unread, harg3.read_unread, harg4.read_unread, harg5.read_unread, View.ld_unit_zero (S := S2048x1024) hz2, View.ld_unit_zero (S := S2048x256) hz2, View.ld_unit_zero (S := S1024x256) hz2, View.ld_unit_zero (S := S1024) hz1]

end Cert.KernelIdeal.Hand

end
-- ==== Proof.LibMatmulNT.lean ====
/-
  A matrix product whose two operands are both contracted on their SECOND axis (an M×K left operand against an N×K
  right operand, the weight matrix stored row per output column), accumulated into zero, read at one entry of the
  result on the extended reals: entry (p, q) is the sum over k of left (p, k) · right (q, k). Every extent is
  arbitrary; the dimension record is any record with that contraction, its few structural facts passed as
  hypotheses (each is closed by rfl or by unfolding at a printed record).
-/
import Idealize.ShloMosaic.PureOps.Ideal.Laws
import Idealize.ShloMosaic.Lib.ValueIdx

noncomputable section

namespace Cert.MatmulNT

open Idealize.ShloMosaic Idealize.ShloMosaic.ValueIdx

/-- Entry (p, q) of left · rightᵀ into a zero accumulator is ∑ₖ left (p, k) · right (q, k). -/
theorem apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ (j : (⟨2, ![M, N]⟩ : Shape).Idx) (q : d.contr.Idx), (d.lhsIdx j q 0).val = (j 0).val)
    (hr0 : ∀ (j : (⟨2, ![M, N]⟩ : Shape).Idx) (q : d.contr.Idx), (d.rhsIdx j q 0).val = (j 1).val)
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

end Cert.MatmulNT

end
-- ==== Proof.Pay1.lean ====
/-
  The matrix-product kernel's three payloads read at one entry (r, q) of the 2048 × 1024 block, on the extended reals:
  the cleared accumulator is the zero word; one step adds Σ_k x(r, k) · w(q, k) over the 256 columns of the two
  operand blocks (both contracted on their second axis); the epilogue adds bias(q).
-/
import proofs.«126541_j38568806318480_2_alg».proof.Proof.Gen.KernelIdeal.Skeleton
import proofs.«126541_j38568806318480_2_alg».proof.Proof.LibMatmulNT
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

abbrev D3 : DotDims S2048x256 S1024x256 S2048x1024 := dot_S2048x256_S1024x256_S2048x1024_1_1_0_0_n_n

theorem D3_l0 (j : S2048x1024.Idx) (q : D3.contr.Idx) : (D3.lhsIdx j q 0).val = (j 0).val := by
  unfold DotDims.lhsIdx
  rw [dif_neg (show ¬(0 : Fin S2048x256.rank) ∈ D3.lhsBatch by decide), dif_pos (show (0 : Fin S2048x256.rank) ∈ D3.lhsNonContracting by decide)]
  rfl
theorem D3_r0 (j : S2048x1024.Idx) (q : D3.contr.Idx) : (D3.rhsIdx j q 0).val = (j 1).val := by
  unfold DotDims.rhsIdx
  rw [dif_neg (show ¬(0 : Fin S1024x256.rank) ∈ D3.rhsBatch by decide), dif_pos (show (0 : Fin S1024x256.rank) ∈ D3.rhsNonContracting by decide)]
  rfl

/-- Entry (r, q) of a 2048 × 256 block against a 1024 × 256 block, both contracted on their columns, into zero. -/
theorem mm3 (A : FVec Ideal S2048x256 .bf16) (B : FVec Ideal S1024x256 .bf16) (r : Fin 2048) (q : Fin 1024) :
    matmul D3 none A B (constant S2048x1024 .f32 0x00000000#32) (ix2 r q) = ∑ k : Fin 256, A (ix2 r k) * B (ix2 q k) :=
  Cert.MatmulNT.apply D3 rfl rfl rfl rfl D3_l0 D3_r0 none A B r q

/-- The cleared accumulator holds the zero word everywhere. -/
theorem pay1_apply (j : S2048x1024.Idx) : k1_pay1 (F := Ideal) j = Ideal.ofBits .f32 0x00000000#32 := by
  unfold k1_pay1
  rw [shapeCast_self]
  rfl

/-- One accumulation step. -/
theorem pay2_apply (v3 : Vec Ideal S2048x1024 .f32) (v4 : Vec Ideal S2048x256 .bf16) (v6 : Vec Ideal S1024x256 .bf16)
    (r : Fin 2048) (q : Fin 1024) :
    k1_pay2 v3 v4 v6 (ix2 r q) = v3 (ix2 r q) + ∑ k : Fin 256, v4 (ix2 r k) * v6 (ix2 q k) := by
  unfold k1_pay2
  rw [shapeCast_self, shapeCast_self, shapeCast_self]
  show v3 (ix2 r q) + matmul (F := Ideal) D3 none v4 v6 (constant (F := Ideal) S2048x1024 .f32 0x00000000#32) (ix2 r q) = _
  rw [mm3]

/-- The epilogue: the bias row added to every row. -/
theorem pay3_apply (v16 : Vec Ideal S2048x1024 .f32) (v17 : Vec Ideal S1024 .f32) (r : Fin 2048) (q : Fin 1024) :
    k1_pay3 v16 v17 (ix2 r q) = v16 (ix2 r q) + v17 (ix1 q) := by
  unfold k1_pay3
  show v16 (ix2 r q) + (broadcastTo S2048x1024 (shapeCast S1x1024 v17 shapeCasts_S1024_S1x1024) broadcasts_S1x1024_S2048x1024 : Vec Ideal S2048x1024 .f32) (ix2 r q) = _
  rw [broadcastTo_1b_ab_apply, shapeCast_a_1a_apply]

end Cert.KernelIdeal.Val

end
-- ==== Proof.Val1.lean ====
/-
  The matrix-product region's output array.  The grid is 8 × 4 × 16: point t sits at row block t / 64, column block
  t / 16 mod 4, contraction block t mod 16.  By induction over the points, the accumulator after point t holds, at
  entry (r, q) of the 2048 × 1024 tile, zero plus the block sums of x(row, ·) · C(o, ·) over the contraction blocks
  0 … t mod 16 (row = 2048 · (t / 64) + r, o = 1024 · (t / 16 mod 4) + q); at t mod 16 = 15 that is the whole
  contraction over 4096, and the point writes it plus bias(o) into the output tile.  The tiles written at those
  points cover the 16384 × 4096 array.
-/
import proofs.«126541_j38568806318480_2_alg».proof.Proof.Ideal.Region1
import proofs.«126541_j38568806318480_2_alg».proof.Proof.Pieces
import proofs.«126541_j38568806318480_2_alg».proof.Proof.Pay1
import proofs.«126541_j38568806318480_2_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The linear layer on rows: entry (row, o) is Σ_i x(row, i) · C(o, i) + bias(o). -/
def G1 (X : S16384x4096.Idx → Elt Ideal .bf16) (C : S4096x4096.Idx → Elt Ideal .bf16) (B : S4096.Idx → Elt Ideal .f32) :
    S16384x4096.Idx → Elt Ideal .f32 :=
  fun j => Cert.Spec.lin (fun i => X (ix2 (j 0) i)) (fun o i => C (ix2 o i)) (fun o => B (ix1 o)) (j 1)

/-- The rows array and the weight array read at natural-number coordinates (zero outside the array). -/
def Xn (X : S16384x4096.Idx → Elt Ideal .bf16) (row col : ℕ) : EReal :=
  if h : row < 16384 ∧ col < 4096 then X (ix2 ⟨row, h.1⟩ ⟨col, h.2⟩) else 0
def Cn (C : S4096x4096.Idx → Elt Ideal .bf16) (o col : ℕ) : EReal :=
  if h : o < 4096 ∧ col < 4096 then C (ix2 ⟨o, h.1⟩ ⟨col, h.2⟩) else 0
/-- The terms of the contraction at (row, o), by column. -/
def term (X : S16384x4096.Idx → Elt Ideal .bf16) (C : S4096x4096.Idx → Elt Ideal .bf16) (row o : ℕ) (i : ℕ) : EReal :=
  Xn X row i * Cn C o i
/-- One contraction block's sum. -/
def blockP (X : S16384x4096.Idx → Elt Ideal .bf16) (C : S4096x4096.Idx → Elt Ideal .bf16) (row o : ℕ) (kb : ℕ) : EReal :=
  ∑ k ∈ Finset.range 256, term X C row o (kb * 256 + k)

/-- The printed index maps, decided over the 512 points. -/
theorem idx1 : ∀ t : Fin cfg1.N,
    win1_0.index t (0 : Fin 2) = t.val / 64 ∧ win1_0.index t (1 : Fin 2) = t.val % 16
    ∧ win1_1.index t (0 : Fin 2) = t.val / 16 % 4 ∧ win1_1.index t (1 : Fin 2) = t.val % 16
    ∧ win1_2.index t (0 : Fin 1) = t.val / 16 % 4
    ∧ win1_3.index t (0 : Fin 2) = t.val / 64 ∧ win1_3.index t (1 : Fin 2) = t.val / 16 % 4 :=
  (by decide +kernel : ∀ t : Fin grid1.N, _)

/-- A block product at one entry, its factors known to be the arrays' entries, is the block's sum of the contraction's terms. -/
theorem block_sum (x0 : Vec Ideal S2048x256 .bf16) (x1 : Vec Ideal S1024x256 .bf16)
    (X : S16384x4096.Idx → Elt Ideal .bf16) (C : S4096x4096.Idx → Elt Ideal .bf16) (row o kb : ℕ) (r : Fin 2048) (q : Fin 1024)
    (h0 : ∀ k : Fin 256, x0 (ix2 r k) = Xn X row (kb * 256 + k.val)) (h1 : ∀ k : Fin 256, x1 (ix2 q k) = Cn C o (kb * 256 + k.val)) :
    ∑ k : Fin 256, x0 (ix2 r k) * x1 (ix2 q k) = blockP X C row o kb := by
  unfold blockP term
  rw [Finset.sum_range]
  exact Finset.sum_congr rfl fun k _ => by rw [h0, h1]

/-- The sixteen block sums, accumulated from zero, are the whole contraction. -/
theorem acc_blockP (X : S16384x4096.Idx → Elt Ideal .bf16) (C : S4096x4096.Idx → Elt Ideal .bf16) (row o : ℕ) :
    Cert.Spec.acc 0 (blockP X C row o) 15 = ∑ i : Fin 4096, term X C row o i.val :=
  Cert.Spec.acc_blocks (term X C row o)

/-! ## Each window's block read at coordinates -/

section Blocks
variable (c : Dev nD) (t : Fin cfg1.N)

theorem blk1_0 (r : Fin 2048) (k : Fin 256) (row : Fin 16384) (col : Fin 4096)
    (hrow : row.val = t.val / 64 * 2048 + r.val) (hcol : col.val = t.val % 16 * 256 + k.val) :
    iblk1 V c 0 t (ix2 r k) = V c main_v1 (ix2 row col) := by
  show V c main_v1 (((cfg1.win 0).blk t).view.emb (ix2 r k)) = V c main_v1 (ix2 row col)
  refine congrArg (V c main_v1) (funext fun a => Fin.ext ?_)
  have e := idx1 t
  match a with
  | ⟨0, _⟩ => show win1_0.index t (0 : Fin 2) * 2048 + 1 * r.val = row.val; omega
  | ⟨1, _⟩ => show win1_0.index t (1 : Fin 2) * 256 + 1 * k.val = col.val; omega

theorem blk1_1 (q : Fin 1024) (k : Fin 256) (o : Fin 4096) (col : Fin 4096)
    (ho : o.val = t.val / 16 % 4 * 1024 + q.val) (hcol : col.val = t.val % 16 * 256 + k.val) :
    iblk1 V c 1 t (ix2 q k) = V c main_v2 (ix2 o col) := by
  show V c main_v2 (((cfg1.win 1).blk t).view.emb (ix2 q k)) = V c main_v2 (ix2 o col)
  refine congrArg (V c main_v2) (funext fun a => Fin.ext ?_)
  have e := idx1 t
  match a with
  | ⟨0, _⟩ => show win1_1.index t (0 : Fin 2) * 1024 + 1 * q.val = o.val; omega
  | ⟨1, _⟩ => show win1_1.index t (1 : Fin 2) * 256 + 1 * k.val = col.val; omega

theorem blk1_2 (q : Fin 1024) (o : Fin 4096) (ho : o.val = t.val / 16 % 4 * 1024 + q.val) :
    iblk1 V c 2 t (ix1 q) = V c main_arg2 (ix1 o) := by
  show V c main_arg2 (((cfg1.win 2).blk t).view.emb (ix1 q)) = V c main_arg2 (ix1 o)
  refine congrArg (V c main_arg2) (funext fun a => Fin.ext ?_)
  have e := idx1 t
  match a with
  | ⟨0, _⟩ => show win1_2.index t (0 : Fin 1) * 1024 + 1 * q.val = o.val; omega

theorem emb1_3 (r : Fin 2048) (q : Fin 1024) (row : Fin 16384) (o : Fin 4096)
    (hrow : row.val = t.val / 64 * 2048 + r.val) (ho : o.val = t.val / 16 % 4 * 1024 + q.val) :
    ((cfg1.win 3).blk t).view.emb (ix2 r q) = ix2 row o := by
  refine funext fun a => Fin.ext ?_
  have e := idx1 t
  match a with
  | ⟨0, _⟩ => show win1_3.index t (0 : Fin 2) * 2048 + 1 * r.val = row.val; omega
  | ⟨1, _⟩ => show win1_3.index t (1 : Fin 2) * 1024 + 1 * q.val = o.val; omega

/-- The rows block and the weight block at point `t`, read at the natural-number coordinates of the arrays. -/
theorem blk_X (r : Fin 2048) (k : Fin 256) :
    iblk1 V c 0 t (ix2 r k) = Xn (V c main_v1) (t.val / 64 * 2048 + r.val) (t.val % 16 * 256 + k.val) := by
  have ht : t.val < 512 := lt_of_lt_of_eq t.isLt N_1
  have hr := r.isLt
  have hk := k.isLt
  have h1 : t.val / 64 * 2048 + r.val < 16384 ∧ t.val % 16 * 256 + k.val < 4096 := by omega
  unfold Xn
  rw [dif_pos h1]
  exact blk1_0 V c t r k ⟨_, h1.1⟩ ⟨_, h1.2⟩ rfl rfl

theorem blk_C (q : Fin 1024) (k : Fin 256) :
    iblk1 V c 1 t (ix2 q k) = Cn (V c main_v2) (t.val / 16 % 4 * 1024 + q.val) (t.val % 16 * 256 + k.val) := by
  have ht : t.val < 512 := lt_of_lt_of_eq t.isLt N_1
  have hq := q.isLt
  have hk := k.isLt
  have h2 : t.val / 16 % 4 * 1024 + q.val < 4096 ∧ t.val % 16 * 256 + k.val < 4096 := by omega
  unfold Cn
  rw [dif_pos h2]
  exact blk1_1 V c t q k ⟨_, h2.1⟩ ⟨_, h2.2⟩ rfl rfl

end Blocks

/-! ## The accumulator, point by point -/

omit V in
theorem fst_of_eq {α β : Type} {p : α × β} {a : α} {b : β} (h : p = (a, b)) : p.1 = a := by rw [h]
omit V in
theorem snd_of_eq {α β : Type} {p : α × β} {a : α} {b : β} (h : p = (a, b)) : p.2 = b := by rw [h]

theorem outsAt1_congr (c : Dev nD) {a b : ℕ} (h : a = b) (ha : a < cfg1.N) (hb : b < cfg1.N) :
    outsAt1 V c a ha = outsAt1 V c b hb := by
  subst h; rfl

set_option maxHeartbeats 400000 in
/-- Where the contraction starts, the accumulator is the cleared one plus the block product. -/
theorem acc_A (c : Dev nD) (t : Fin cfg1.N) (h0 : t.val % 16 = 0) :
    (outsAt1 V c t.val t.isLt).2 = k1_pay2 (k1_pay1 (F := Ideal)) (iblk1 V c 0 t) (iblk1 V c 1 t) := by
  have h1 : ¬ t.val % 16 = 15 := by omega
  refine (snd_of_eq (outsAt1_A V c t h0 h1)).trans ?_
  exact sout1_A_eq c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

set_option maxHeartbeats 400000 in
/-- Elsewhere, it is the accumulator the point before left plus the block product. -/
theorem acc_BC (c : Dev nD) (t : Fin cfg1.N) (h0 : ¬ t.val % 16 = 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 16 = 15
  · refine (snd_of_eq (outsAt1_C V c t h0 h1)).trans ?_
    exact sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · refine (snd_of_eq (outsAt1_B V c t h0 h1)).trans ?_
    exact sout1_B_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

set_option maxHeartbeats 400000 in
/-- Where the contraction ends, the output tile is the accumulator plus the bias row. -/
theorem out_C (c : Dev nD) (t : Fin cfg1.N) (h1 : t.val % 16 = 15) :
    (outsAt1 V c t.val t.isLt).1 = k1_pay3 (outsAt1 V c t.val t.isLt).2 (iblk1 V c 2 t) := by
  have h0 : ¬ t.val % 16 = 0 := by omega
  have e1 := (fst_of_eq (outsAt1_C V c t h0 h1)).trans
    (out1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2)
  have e2 := (snd_of_eq (outsAt1_C V c t h0 h1)).trans
    (sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2)
  rw [e1, e2]

set_option maxHeartbeats 400000 in
/-- THE ACCUMULATOR after the point at position `n`, entry by entry: zero plus the block sums so far. -/
theorem acc_inv (c : Dev nD) (n : ℕ) : ∀ (hn : n < cfg1.N) (r : Fin 2048) (q : Fin 1024),
    (outsAt1 V c n hn).2 (ix2 r q)
      = Cert.Spec.acc 0 (blockP (V c main_v1) (V c main_v2) (n / 64 * 2048 + r.val) (n / 16 % 4 * 1024 + q.val)) (n % 16) := by
  induction n with
  | zero =>
    intro hn r q
    refine (congrFun (acc_A V c ⟨0, hn⟩ (Nat.zero_mod 16)) (ix2 r q)).trans ?_
    refine (pay2_apply (k1_pay1 (F := Ideal)) (iblk1 V c 0 ⟨0, hn⟩) (iblk1 V c 1 ⟨0, hn⟩) r q).trans ?_
    refine (congrArg₂ (· + ·) ((pay1_apply (ix2 r q)).trans Ideal.ofBits_zero_f32)
      (block_sum (iblk1 V c 0 ⟨0, hn⟩) (iblk1 V c 1 ⟨0, hn⟩) (V c main_v1) (V c main_v2) _ _ _ r q
        (fun k => blk_X V c ⟨0, hn⟩ r k) (fun k => blk_C V c ⟨0, hn⟩ q k))).trans ?_
    rfl
  | succ n ih =>
    intro hn r q
    by_cases h0 : (n + 1) % 16 = 0
    · refine (congrFun (acc_A V c ⟨n + 1, hn⟩ h0) (ix2 r q)).trans ?_
      refine (pay2_apply (k1_pay1 (F := Ideal)) (iblk1 V c 0 ⟨n + 1, hn⟩) (iblk1 V c 1 ⟨n + 1, hn⟩) r q).trans ?_
      refine (congrArg₂ (· + ·) ((pay1_apply (ix2 r q)).trans Ideal.ofBits_zero_f32)
        (block_sum (iblk1 V c 0 ⟨n + 1, hn⟩) (iblk1 V c 1 ⟨n + 1, hn⟩) (V c main_v1) (V c main_v2) _ _ _ r q
          (fun k => blk_X V c ⟨n + 1, hn⟩ r k) (fun k => blk_C V c ⟨n + 1, hn⟩ q k))).trans ?_
      show _ = Cert.Spec.acc 0 _ ((n + 1) % 16)
      rw [h0]
      rfl
    · refine (congrFun (acc_BC V c ⟨n + 1, hn⟩ h0) (ix2 r q)).trans ?_
      refine (pay2_apply _ (iblk1 V c 0 ⟨n + 1, hn⟩) (iblk1 V c 1 ⟨n + 1, hn⟩) r q).trans ?_
      have e := congrArg Prod.snd (outsAt1_congr V c (by omega : n + 1 - 1 = n) (Nat.lt_of_le_of_lt (Nat.sub_le _ _) hn) (Nat.lt_of_succ_lt hn))
      refine (congrArg₂ (· + ·) ((congrFun e (ix2 r q)).trans (ih (Nat.lt_of_succ_lt hn) r q))
        (block_sum (iblk1 V c 0 ⟨n + 1, hn⟩) (iblk1 V c 1 ⟨n + 1, hn⟩) (V c main_v1) (V c main_v2) _ _ _ r q
          (fun k => blk_X V c ⟨n + 1, hn⟩ r k) (fun k => blk_C V c ⟨n + 1, hn⟩ q k))).trans ?_
      have d64 : (n + 1) / 64 = n / 64 := by omega
      have d16 : (n + 1) / 16 = n / 16 := by omega
      obtain ⟨j, hj⟩ : ∃ j, (n + 1) % 16 = j + 1 := ⟨(n + 1) % 16 - 1, by omega⟩
      have hj' : n % 16 = j := by omega
      show _ + blockP _ _ ((n + 1) / 64 * 2048 + r.val) ((n + 1) / 16 % 4 * 1024 + q.val) ((n + 1) % 16) = Cert.Spec.acc 0 (blockP _ _ ((n + 1) / 64 * 2048 + r.val) ((n + 1) / 16 % 4 * 1024 + q.val)) ((n + 1) % 16)
      rw [d64, d16, hj, hj']
      rfl

/-! ## From tiles to the array -/

set_option maxHeartbeats 400000 in
/-- WHAT A FLUSHING POINT WRITES BACK is its tile of the linear layer of the arrays the region found. -/
theorem flushed1_eq (c : Dev nD) (t : Fin cfg1.N) (h1 : t.val % 16 = 15) :
    (dat1 V c).flushed 3 t = ((cfg1.win 3).blk t).view.read (Elt Ideal) (G1 (V c main_v1) (V c main_v2) (V c main_arg2)) := by
  show (cfg1.win 3).cut (grid1.coords t) ((dat1 V c).after 3 t) = _
  rw [after1_3, out_C V c t h1]
  funext j
  obtain ⟨r, q, rfl⟩ : ∃ (r : Fin 2048) (q : Fin 1024), j = ix2 r q := ⟨j 0, j 1, eq_ix2 j⟩
  have ht : t.val < 512 := lt_of_lt_of_eq t.isLt N_1
  have hr := r.isLt
  have hq := q.isLt
  obtain ⟨row, hrow⟩ : ∃ row : Fin 16384, row.val = t.val / 64 * 2048 + r.val := ⟨⟨t.val / 64 * 2048 + r.val, by omega⟩, rfl⟩
  obtain ⟨o, ho⟩ : ∃ o : Fin 4096, o.val = t.val / 16 % 4 * 1024 + q.val := ⟨⟨t.val / 16 % 4 * 1024 + q.val, by omega⟩, rfl⟩
  refine (pay3_apply _ (iblk1 V c 2 t) r q).trans ?_
  show _ = G1 (V c main_v1) (V c main_v2) (V c main_arg2) (((cfg1.win 3).blk t).view.emb (ix2 r q))
  rw [emb1_3 t r q row o hrow ho, acc_inv V c t.val t.isLt r q, blk1_2 V c t q o ho, h1, acc_blockP]
  show _ = Cert.Spec.lin (fun i => V c main_v1 (ix2 row i)) (fun o i => V c main_v2 (ix2 o i)) (fun o => V c main_arg2 (ix1 o)) o
  unfold Cert.Spec.lin
  refine congrArg (· + V c main_arg2 (ix1 o)) (Finset.sum_congr rfl fun i _ => ?_)
  have hi := i.isLt
  have h1' : t.val / 64 * 2048 + r.val < 16384 ∧ i.val < 4096 := by omega
  have h2' : t.val / 16 % 4 * 1024 + q.val < 4096 ∧ i.val < 4096 := by omega
  unfold term Xn Cn
  rw [dif_pos h1', dif_pos h2']
  have er : (⟨t.val / 64 * 2048 + r.val, h1'.1⟩ : Fin 16384) = row := Fin.ext hrow.symm
  have eo : (⟨t.val / 16 % 4 * 1024 + q.val, h2'.1⟩ : Fin 4096) = o := Fin.ext ho.symm
  rw [er, eo]

theorem mem_blk1 (t : Fin cfg1.N) (i : S16384x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v3).slice (win1_3.rect t)).set ↔ _
  rw [View.set_slice_whole, Rect.mem_set_unit]
  exact Iff.rfl

/-- Every entry of the array is in the tile of a point that writes back. -/
theorem cover1 (i : S16384x4096.Idx) : ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 512 := N_1
  have hlt : ((i 0).val / 2048 * 4 + (i 1).val / 1024) * 16 + 15 < cfg1.N := by rw [hN]; omega
  refine ⟨⟨((i 0).val / 2048 * 4 + (i 1).val / 1024) * 16 + 15, hlt⟩, (flush1_3 _).mpr (by show (((i 0).val / 2048 * 4 + (i 1).val / 1024) * 16 + 15) % 16 = 15; omega), ?_⟩
  rw [mem_blk1]
  have e := idx1 ⟨((i 0).val / 2048 * 4 + (i 1).val / 1024) * 16 + 15, hlt⟩
  have e0 : win1_3.index ⟨((i 0).val / 2048 * 4 + (i 1).val / 1024) * 16 + 15, hlt⟩ (0 : Fin 2) = (((i 0).val / 2048 * 4 + (i 1).val / 1024) * 16 + 15) / 64 := e.2.2.2.2.2.1
  have e1 : win1_3.index ⟨((i 0).val / 2048 * 4 + (i 1).val / 1024) * 16 + 15, hlt⟩ (1 : Fin 2) = (((i 0).val / 2048 * 4 + (i 1).val / 1024) * 16 + 15) / 16 % 4 := e.2.2.2.2.2.2
  intro a
  match a with
  | ⟨0, _⟩ =>
    show win1_3.index ⟨((i 0).val / 2048 * 4 + (i 1).val / 1024) * 16 + 15, hlt⟩ (0 : Fin 2) * 2048 ≤ (i 0).val ∧ (i 0).val < win1_3.index ⟨((i 0).val / 2048 * 4 + (i 1).val / 1024) * 16 + 15, hlt⟩ (0 : Fin 2) * 2048 + 2048
    rw [e0]; omega
  | ⟨1, _⟩ =>
    show win1_3.index ⟨((i 0).val / 2048 * 4 + (i 1).val / 1024) * 16 + 15, hlt⟩ (1 : Fin 2) * 1024 ≤ (i 1).val ∧ (i 1).val < win1_3.index ⟨((i 0).val / 2048 * 4 + (i 1).val / 1024) * 16 + 15, hlt⟩ (1 : Fin 2) * 1024 + 1024
    rw [e1]; omega

/-- THE ARRAY after the region: the linear layer of the arrays the region found. -/
theorem final1 (c : Dev nD) : (dat1 V c).arrAt 3 cfg1.N = G1 (V c main_v1) (V c main_v2) (V c main_arg2) :=
  (dat1 V c).arrAt_eq_of_cover 3 _ (fun t hf => flushed1_eq V c t ((flush1_3 t).mp hf)) cover1

end Cert.KernelIdeal.Val

end
-- ==== Proof.RefValue.lean ====
/-
  The reference's result read index by index: at (b, s, o) it is Σ_i x(b, s, i) · C(o, i) + bias(o), with C the
  corrected weight matrix W + (U_top · gate) Vh_top + (U_tail · S_tail)(R Vh_tail) — the reference's operations one
  after the other, each read at an index.
-/
import proofs.«126541_j38568806318480_2_alg».proof.Proof.Gen.ReferenceIdeal.Run
import proofs.«126541_j38568806318480_2_alg».proof.Proof.Gen.ReferenceIdeal.Read
import proofs.«126541_j38568806318480_2_alg».proof.Proof.Spec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- The reference's result as one function of its twelve arguments (numbered as the program numbers them). -/
def GR (x0 : (⟨S4x4096x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (x5 : (⟨S64x4096, .f32⟩ : BufTy).Contents (Elt Ideal)) (x6 : (⟨S4096x64, .f32⟩ : BufTy).Contents (Elt Ideal)) (x7 : (⟨S64, .f32⟩ : BufTy).Contents (Elt Ideal)) (x8 : (⟨S64x4096, .f32⟩ : BufTy).Contents (Elt Ideal)) (x9 x10 : (⟨S64, .f32⟩ : BufTy).Contents (Elt Ideal)) (x11 : (⟨S64x64, .f32⟩ : BufTy).Contents (Elt Ideal)) : (⟨S4x4096x4096, .f32⟩ : BufTy).Contents (Elt Ideal) :=
  fun j => Cert.Spec.lin (fun i => x0 (ix3 (j 0) (j 1) i)) (Cert.Spec.corr (Ideal.ofBits .f32 0x00000000#32) (fun o i => x1 (ix2 o i)) (fun o r => x3 (ix2 o r)) (fun r => x4 (ix1 r)) (fun r i => x5 (ix2 r i)) (fun o r => x6 (ix2 o r)) (fun r => x7 (ix1 r)) (fun r i => x8 (ix2 r i)) (fun r => x9 (ix1 r)) (fun r => x10 (ix1 r)) (fun r s => x11 (ix2 r s))) (fun o => x2 (ix1 o)) (j 2)

theorem gate_eq (x4 x9 x10 : (⟨S64, .f32⟩ : BufTy).Contents (Elt Ideal)) (r : Fin 64) :
    val_main_v2 (F := Ideal) x4 x9 x10 (ix1 r) = Cert.Spec.gate (Ideal.ofBits .f32 0x00000000#32) (fun r => x4 (ix1 r)) (fun r => x9 (ix1 r)) (fun r => x10 (ix1 r)) r := by
  rw [val_main_v2_apply, val_main_v1_apply, val_main_v0_apply, val_main_call0_v0_apply, val_main_call0_cst_apply]
  rfl

theorem v5_eq (x3 : (⟨S4096x64, .f32⟩ : BufTy).Contents (Elt Ideal)) (x4 x9 x10 : (⟨S64, .f32⟩ : BufTy).Contents (Elt Ideal)) (o : Fin 4096) (r : Fin 64) :
    val_main_v5 (F := Ideal) x3 x4 x9 x10 (ix2 o r) = x3 (ix2 o r) * Cert.Spec.gate (Ideal.ofBits .f32 0x00000000#32) (fun r => x4 (ix1 r)) (fun r => x9 (ix1 r)) (fun r => x10 (ix1 r)) r := by
  rw [val_main_v5_apply, val_main_v4_apply, val_main_v3_apply]
  have e : idx_main_v3 (idx_main_v4 (ix2 o r)) = ix1 r := funext fun a => Fin.ext (by match a with | ⟨0, _⟩ => rfl)
  rw [e, gate_eq]
  rfl

theorem v9_eq (x6 : (⟨S4096x64, .f32⟩ : BufTy).Contents (Elt Ideal)) (x7 : (⟨S64, .f32⟩ : BufTy).Contents (Elt Ideal)) (o : Fin 4096) (r : Fin 64) :
    val_main_v9 (F := Ideal) x6 x7 (ix2 o r) = x6 (ix2 o r) * x7 (ix1 r) := by
  rw [val_main_v9_apply, val_main_v8_apply, val_main_v7_apply]
  have e : idx_main_v7 (idx_main_v8 (ix2 o r)) = ix1 r := funext fun a => Fin.ext (by match a with | ⟨0, _⟩ => rfl)
  rw [e]
  rfl

theorem v10_eq (x8 : (⟨S64x4096, .f32⟩ : BufTy).Contents (Elt Ideal)) (x11 : (⟨S64x64, .f32⟩ : BufTy).Contents (Elt Ideal)) (r : Fin 64) (i : Fin 4096) :
    val_main_v10 (F := Ideal) x8 x11 (ix2 r i) = ∑ q : Fin 64, x11 (ix2 r q) * x8 (ix2 q i) := by
  rw [val_main_v10_apply]
  refine Finset.sum_congr rfl fun q _ => ?_
  have el : lidx_main_v10 (ix2 r i) q = ix2 r q := funext fun a => Fin.ext (by match a with | ⟨0, _⟩ => rfl | ⟨1, _⟩ => rfl)
  have er : ridx_main_v10 (ix2 r i) q = ix2 q i := funext fun a => Fin.ext (by match a with | ⟨0, _⟩ => rfl | ⟨1, _⟩ => rfl)
  rw [el, er]

theorem v13_eq (x0 : (⟨S4x4096x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (x5 : (⟨S64x4096, .f32⟩ : BufTy).Contents (Elt Ideal)) (x6 : (⟨S4096x64, .f32⟩ : BufTy).Contents (Elt Ideal)) (x7 : (⟨S64, .f32⟩ : BufTy).Contents (Elt Ideal)) (x8 : (⟨S64x4096, .f32⟩ : BufTy).Contents (Elt Ideal)) (x9 x10 : (⟨S64, .f32⟩ : BufTy).Contents (Elt Ideal)) (x11 : (⟨S64x64, .f32⟩ : BufTy).Contents (Elt Ideal)) (o i : Fin 4096) :
    val_main_v13 (F := Ideal) x1 x3 x4 x5 x6 x7 x8 x9 x10 x11 (ix2 o i) = Cert.Spec.corr (Ideal.ofBits .f32 0x00000000#32) (fun o i => x1 (ix2 o i)) (fun o r => x3 (ix2 o r)) (fun r => x4 (ix1 r)) (fun r i => x5 (ix2 r i)) (fun o r => x6 (ix2 o r)) (fun r => x7 (ix1 r)) (fun r i => x8 (ix2 r i)) (fun r => x9 (ix1 r)) (fun r => x10 (ix1 r)) (fun r s => x11 (ix2 r s)) o i := by
  rw [val_main_v13_apply, val_main_v12_apply, val_main_v6_apply, val_main_v11_apply]
  unfold Cert.Spec.corr
  show (x1 (ix2 o i) + ∑ k : Fin 64, val_main_v5 (F := Ideal) x3 x4 x9 x10 (lidx_main_v6 (ix2 o i) k) * x5 (ridx_main_v6 (ix2 o i) k))
      + ∑ k : Fin 64, val_main_v9 (F := Ideal) x6 x7 (lidx_main_v11 (ix2 o i) k) * val_main_v10 (F := Ideal) x8 x11 (ridx_main_v11 (ix2 o i) k) = _
  refine congrArg₂ (· + ·) (congrArg (x1 (ix2 o i) + ·) (Finset.sum_congr rfl fun r _ => ?_)) (Finset.sum_congr rfl fun r _ => ?_)
  · have el : lidx_main_v6 (ix2 o i) r = ix2 o r := funext fun a => Fin.ext (by match a with | ⟨0, _⟩ => rfl | ⟨1, _⟩ => rfl)
    have er : ridx_main_v6 (ix2 o i) r = ix2 r i := funext fun a => Fin.ext (by match a with | ⟨0, _⟩ => rfl | ⟨1, _⟩ => rfl)
    rw [el, er, v5_eq]
  · have el : lidx_main_v11 (ix2 o i) r = ix2 o r := funext fun a => Fin.ext (by match a with | ⟨0, _⟩ => rfl | ⟨1, _⟩ => rfl)
    have er : ridx_main_v11 (ix2 o i) r = ix2 r i := funext fun a => Fin.ext (by match a with | ⟨0, _⟩ => rfl | ⟨1, _⟩ => rfl)
    rw [el, er, v9_eq, v10_eq]

/-- THE REFERENCE'S RESULT is that function. -/
theorem ref_eq (x0 : (⟨S4x4096x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (x5 : (⟨S64x4096, .f32⟩ : BufTy).Contents (Elt Ideal)) (x6 : (⟨S4096x64, .f32⟩ : BufTy).Contents (Elt Ideal)) (x7 : (⟨S64, .f32⟩ : BufTy).Contents (Elt Ideal)) (x8 : (⟨S64x4096, .f32⟩ : BufTy).Contents (Elt Ideal)) (x9 x10 : (⟨S64, .f32⟩ : BufTy).Contents (Elt Ideal)) (x11 : (⟨S64x64, .f32⟩ : BufTy).Contents (Elt Ideal)) :
    val_main_v17 (F := Ideal) x0 x1 x2 x3 x4 x5 x6 x7 x8 x9 x10 x11 = GR x0 x1 x2 x3 x4 x5 x6 x7 x8 x9 x10 x11 := by
  funext j
  obtain ⟨b, s, o, rfl⟩ : ∃ (b : Fin 4) (s o : Fin 4096), j = ix3 b s o := ⟨j 0, j 1, j 2, eq_ix3 j⟩
  rw [val_main_v17_apply, val_main_v14_apply, val_main_v16_apply, val_main_v15_apply]
  have eb : idx_main_v15 (idx_main_v16 (ix3 b s o)) = ix1 o := funext fun a => Fin.ext (by match a with | ⟨0, _⟩ => rfl)
  rw [eb]
  show (∑ k : Fin 4096, x0 (lidx_main_v14 (ix3 b s o) k) * val_main_v13 (F := Ideal) x1 x3 x4 x5 x6 x7 x8 x9 x10 x11 (ridx_main_v14 (ix3 b s o) k)) + x2 (ix1 o)
    = Cert.Spec.lin (fun i => x0 (ix3 b s i)) (Cert.Spec.corr (Ideal.ofBits .f32 0x00000000#32) (fun o i => x1 (ix2 o i)) (fun o r => x3 (ix2 o r)) (fun r => x4 (ix1 r)) (fun r i => x5 (ix2 r i)) (fun o r => x6 (ix2 o r)) (fun r => x7 (ix1 r)) (fun r i => x8 (ix2 r i)) (fun r => x9 (ix1 r)) (fun r => x10 (ix1 r)) (fun r s => x11 (ix2 r s))) (fun o => x2 (ix1 o)) o
  unfold Cert.Spec.lin
  refine congrArg (· + x2 (ix1 o)) (Finset.sum_congr rfl fun k _ => ?_)
  have el : lidx_main_v14 (ix3 b s o) k = ix3 b s k := funext fun a => Fin.ext (by match a with | ⟨0, _⟩ => rfl | ⟨1, _⟩ => rfl | ⟨2, _⟩ => rfl)
  have er : ridx_main_v14 (ix3 b s o) k = ix2 o k := funext fun a => Fin.ext (by match a with | ⟨0, _⟩ => rfl | ⟨1, _⟩ => rfl)
  rw [el, er, v13_eq x0 x1 x2]

end Cert.ReferenceIdeal.RefValue

end
-- ==== Proof.Bridge.lean ====
/-
  The kernel program's result as one function of its twelve arguments, and that it is the reference's.  The rows
  array the matrix-product region reads is the input reshaped [4, 4096, 4096] → [16384, 4096] (and rounded: the
  identity on the extended reals); its weight array is what the prologue region left, the corrected weight matrix;
  the program's result is the region's output reshaped back.  Entry (b, s, o) of the result is therefore
  Σ_i x(b, s, i) · C(o, i) + bias(o), the reference's entry.
-/
import proofs.«126541_j38568806318480_2_alg».proof.Proof.Ideal.Run
import proofs.«126541_j38568806318480_2_alg».proof.Proof.Val0
import proofs.«126541_j38568806318480_2_alg».proof.Proof.Val1
import proofs.«126541_j38568806318480_2_alg».proof.Proof.RefValue
import Idealize.ShloMosaic.Lib.StableHlo.Run
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The contents the regions find -/

/-- The first host stretch writes only its two results: every other buffer enters the prologue region as launched. -/
theorem V1_arg (c : Dev nD) (r : Ref sig .tc) (h : r ∉ hostOps0_W) : Hand.V1 m c r = m ((c : Thread nD τ).loc r) :=
  (StableHlo.after_of_writes_sub hostOps0 _ hostOps0_writes h).trans rfl

/-- The input as rows: reshaped [4, 4096, 4096] → [16384, 4096], then rounded (the identity on the extended reals). -/
def rowsOf (x0 : S4x4096x4096.Idx → Elt Ideal .f32) : S16384x4096.Idx → Elt Ideal .bf16 :=
  truncf (F := Ideal) .bf16 (shapeCast S16384x4096 x0 shapeCasts_S4x4096x4096_S16384x4096) bitsLt_bf16_f32

/-- The rows array the matrix-product region reads. -/
theorem V1_main_v1 (c : Dev nD) : Hand.V1 m c main_v1 = rowsOf (m ((c : Thread nD τ).loc main_arg0)) := by
  show StableHlo.after hostOps0 (W0 m c) (Proc.devRef .tc main_v1) = _
  after_results
  rfl

/-- The weight array the matrix-product region reads is the corrected weight matrix of the launched arrays. -/
theorem V2_main_v2 (c : Dev nD) : Hand.V2 m c main_v2 = G0 (m ((c : Thread nD τ).loc main_arg1)) (m ((c : Thread nD τ).loc main_arg3)) (m ((c : Thread nD τ).loc main_arg5)) (m ((c : Thread nD τ).loc main_arg6)) (m ((c : Thread nD τ).loc main_arg8)) (m ((c : Thread nD τ).loc main_arg4)) (m ((c : Thread nD τ).loc main_arg9)) (m ((c : Thread nD τ).loc main_arg10)) (m ((c : Thread nD τ).loc main_arg7)) (m ((c : Thread nD τ).loc main_arg11)) := by
  refine (W2_arr m c 10).trans ((final0 (Hand.V1 m) c).trans ?_)
  rw [V1_arg m c main_arg1 (by decide), V1_arg m c main_arg3 (by decide), V1_arg m c main_arg5 (by decide), V1_arg m c main_arg6 (by decide),
    V1_arg m c main_arg8 (by decide), V1_arg m c main_arg4 (by decide), V1_arg m c main_arg9 (by decide), V1_arg m c main_arg10 (by decide),
    V1_arg m c main_arg7 (by decide), V1_arg m c main_arg11 (by decide)]

theorem V2_main_v1 (c : Dev nD) : Hand.V2 m c main_v1 = Hand.V1 m c main_v1 := W2_of_ne m c main_v1 (by decide)
theorem V2_main_arg2 (c : Dev nD) : Hand.V2 m c main_arg2 = m ((c : Thread nD τ).loc main_arg2) :=
  (W2_of_ne m c main_arg2 (by decide)).trans (V1_arg m c main_arg2 (by decide))

/-- The matrix-product region's output array. -/
theorem W3_main_v3 (c : Dev nD) : W3 m c (Proc.devRef .tc main_v3) = G1 (Hand.V2 m c main_v1) (Hand.V2 m c main_v2) (Hand.V2 m c main_arg2) :=
  (W3_arr m c 3).trans (final1 (Hand.V2 m) c)

/-- The program's result: that array reshaped back. -/
theorem W4_main_v4 (c : Dev nD) : W4 m c (Proc.devRef .tc main_v4)
    = shapeCast S4x4096x4096 (W3 m c (Proc.devRef .tc main_v3)) shapeCasts_S16384x4096_S4x4096x4096 := by
  show StableHlo.after hostOps2 (W3 m c) (Proc.devRef .tc main_v4) = _
  after_results
  rfl

/-! ## The result as one function -/

/-- The kernel program's result from its twelve arguments. -/
def KR (x0 : S4x4096x4096.Idx → Elt Ideal .f32) (x1 : S4096x4096.Idx → Elt Ideal .f32) (x2 : S4096.Idx → Elt Ideal .f32) (x3 : S4096x64.Idx → Elt Ideal .f32) (x4 : S64.Idx → Elt Ideal .f32) (x5 : S64x4096.Idx → Elt Ideal .f32) (x6 : S4096x64.Idx → Elt Ideal .f32) (x7 : S64.Idx → Elt Ideal .f32) (x8 : S64x4096.Idx → Elt Ideal .f32) (x9 x10 : S64.Idx → Elt Ideal .f32) (x11 : S64x64.Idx → Elt Ideal .f32) : S4x4096x4096.Idx → Elt Ideal .f32 :=
  shapeCast S4x4096x4096 (G1 (rowsOf x0) (G0 x1 x3 x5 x6 x8 x4 x9 x10 x7 x11) x2) shapeCasts_S16384x4096_S4x4096x4096

theorem W4_value (c : Dev nD) : W4 m c (Proc.devRef .tc main_v4) = KR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W4_main_v4, W3_main_v3, V2_main_v1, V1_main_v1, V2_main_v2, V2_main_arg2]
  rfl

/-- Entry by entry it is the reference's function. -/
theorem KR_eq_GR (x0 : S4x4096x4096.Idx → Elt Ideal .f32) (x1 : S4096x4096.Idx → Elt Ideal .f32) (x2 : S4096.Idx → Elt Ideal .f32) (x3 : S4096x64.Idx → Elt Ideal .f32) (x4 : S64.Idx → Elt Ideal .f32) (x5 : S64x4096.Idx → Elt Ideal .f32) (x6 : S4096x64.Idx → Elt Ideal .f32) (x7 : S64.Idx → Elt Ideal .f32) (x8 : S64x4096.Idx → Elt Ideal .f32) (x9 x10 : S64.Idx → Elt Ideal .f32) (x11 : S64x64.Idx → Elt Ideal .f32) :
    KR x0 x1 x2 x3 x4 x5 x6 x7 x8 x9 x10 x11 = Cert.ReferenceIdeal.RefValue.GR x0 x1 x2 x3 x4 x5 x6 x7 x8 x9 x10 x11 := by
  funext j
  obtain ⟨b, s, o, rfl⟩ : ∃ (b : Fin 4) (s o : Fin 4096), j = ix3 b s o := ⟨j 0, j 1, j 2, eq_ix3 j⟩
  have hb := b.isLt
  have hs := s.isLt
  obtain ⟨row, hrow⟩ : ∃ row : Fin 16384, row.val = b.val * 4096 + s.val := ⟨⟨b.val * 4096 + s.val, by omega⟩, rfl⟩
  unfold KR
  rw [shapeCast_apply _ shapeCasts_S16384x4096_S4x4096x4096 (ix3 b s o) (ix2 row o) (by
    rw [Shape.rowMajor_val_two, Shape.rowMajor_val_three]
    show row.val * 4096 + o.val = (b.val * 4096 + s.val) * 4096 + o.val
    rw [hrow])]
  show Cert.Spec.lin (fun i => rowsOf x0 (ix2 row i)) _ _ o
    = Cert.Spec.lin (fun i => x0 (ix3 b s i)) _ _ o
  refine congrArg (fun f => Cert.Spec.lin f _ _ o) (funext fun i => ?_)
  exact shapeCast_apply x0 shapeCasts_S4x4096x4096_S16384x4096 (ix2 row i) (ix3 b s i) (by
    rw [Shape.rowMajor_val_two, Shape.rowMajor_val_three]
    show (b.val * 4096 + s.val) * 4096 + i.val = row.val * 4096 + i.val
    rw [hrow])

end Cert.KernelIdeal.Val

end
-- ==== Proof.lean ====
/-
  The kernel rebuilds a corrected weight matrix C = W + (U_top · relu(S_top·α + β)) Vh_top + (U_tail · S_tail)(R Vh_tail)
  in one region and multiplies the input rows by Cᵀ, adding the bias, in a second region that accumulates the
  contraction over sixteen blocks of 256 columns; the reference computes the same C and one whole contraction.
  On the extended reals every rounding is the identity and a sum may be regrouped freely, so the two results are
  equal entry by entry; no finiteness of the inputs is used.

  The three frames: the kernel program's (at the word level and at the ideal values) from the run of its four
  segments, the reference's from its run.  The idealization rewrote nothing, so there is nothing to preserve.
-/
import proofs.«126541_j38568806318480_2_alg».proof.Defs
import proofs.«126541_j38568806318480_2_alg».proof.Proof.Gen.Kernel
import proofs.«126541_j38568806318480_2_alg».proof.Proof.Gen.KernelIdeal
import proofs.«126541_j38568806318480_2_alg».proof.Proof.Gen.ReferenceIdeal
import proofs.«126541_j38568806318480_2_alg».proof.Proof.Gen.Pre_finite_inputs
import proofs.«126541_j38568806318480_2_alg».proof.Proof.Gen.ReferenceIdeal.Run
import proofs.«126541_j38568806318480_2_alg».proof.Proof.Gen.ReferenceIdeal.Read
import proofs.«126541_j38568806318480_2_alg».proof.Proof.Bits.Run
import proofs.«126541_j38568806318480_2_alg».proof.Proof.Ideal.Run
import proofs.«126541_j38568806318480_2_alg».proof.Proof.Bridge
import proofs.«126541_j38568806318480_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
/-- Both programs end, from memories agreeing on the arguments, with the same result: the kernel program's last
    boundary contents at its result buffer, which entry by entry is the reference's function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => W4 m c (Proc.devRef .tc main_v4), ?_, ?_⟩
  · exact (θ_run Cert.KernelIdeal.defs _ _).mono (fun r h c => ⟨h c _ (mem_uc main_v4 (by decide)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c)⟩) (run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact ((Cert.KernelIdeal.Val.W4_value m c).trans (Cert.KernelIdeal.Val.KR_eq_GR _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
